-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64 .f32) (main_arg9 : FVec F S64x1 .f32) (main_arg10 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S1024x256 .f32) (main_arg1 : FVec F S256x256 .f32) (main_arg2 : IVec S256 32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x256 : Shape := ⟨2, ![1024, 256]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x256 : Shape := ⟨2, ![1, 256]⟩
abbrev S_ : Shape := ⟨0, ![]⟩
abbrev S128x128 : Shape := ⟨2, ![128, 128]⟩
abbrev S1x128 : Shape := ⟨2, ![1, 128]⟩
abbrev S2 : Shape := ⟨1, ![2]⟩
abbrev S64x256 : Shape := ⟨2, ![64, 256]⟩
abbrev S64x1x256 : Shape := ⟨3, ![64, 1, 256]⟩
abbrev S1x256x256 : Shape := ⟨3, ![1, 256, 256]⟩
abbrev S64x256x256 : Shape := ⟨3, ![64, 256, 256]⟩
abbrev S16384x256 : Shape := ⟨2, ![16384, 256]⟩
abbrev S16384x128 : Shape := ⟨2, ![16384, 128]⟩
abbrev S64x256x128 : Shape := ⟨3, ![64, 256, 128]⟩
abbrev S1x1x128 : Shape := ⟨3, ![1, 1, 128]⟩
abbrev S1x1 : Shape := ⟨2, ![1, 1]⟩

abbrev nBuf : Space → Nat
  | .hbm => 41
  | .vmem => 11
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S1x256, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S1024x256, .f32⟩
  | .hbm, ⟨19, _⟩ => ⟨S256x128, .bf16⟩
  | .hbm, ⟨20, _⟩ => ⟨S_, .f32⟩
  | .hbm, ⟨21, _⟩ => ⟨S128x128, .f32⟩
  | .hbm, ⟨22, _⟩ => ⟨S_, .i32⟩
  | .hbm, ⟨23, _⟩ => ⟨S1, .i32⟩
  | .hbm, ⟨24, _⟩ => ⟨S128x128, .f32⟩
  | .hbm, ⟨25, _⟩ => ⟨S128x128, .bf16⟩
  | .hbm, ⟨26, _⟩ => ⟨S_, .f32⟩
  | .hbm, ⟨27, _⟩ => ⟨S128, .f32⟩
  | .hbm, ⟨28, _⟩ => ⟨S_, .i32⟩
  | .hbm, ⟨29, _⟩ => ⟨S1, .i32⟩
  | .hbm, ⟨30, _⟩ => ⟨S128, .f32⟩
  | .hbm, ⟨31, _⟩ => ⟨S64, .f32⟩
  | .hbm, ⟨32, _⟩ => ⟨S_, .f32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S1024x256, .f32⟩
  | .local _ .vmem, ⟨0, _⟩ => ⟨S64x256, .f32⟩
  | .local _ .vmem, ⟨1, _⟩ => ⟨S64x256, .f32⟩
  | .local _ .vmem, ⟨2, _⟩ => ⟨S256x256, .bf16⟩
  | .local _ .vmem, ⟨3, _⟩ => ⟨S256x128, .bf16⟩
  | .local _ .vmem, ⟨4, _⟩ => ⟨S128, .f32⟩
  | .local _ .vmem, ⟨5, _⟩ => ⟨S128x128, .bf16⟩
  | .local _ .vmem, ⟨6, _⟩ => ⟨S128, .f32⟩
  | .local _ .vmem, ⟨7, _⟩ => ⟨S1x128, .f32⟩
  | .local _ .vmem, ⟨8, _⟩ => ⟨S1, .f32⟩
  | .local _ .vmem, ⟨9, _⟩ => ⟨S64x256, .f32⟩
  | .local _ .vmem, ⟨10, _⟩ => ⟨S64x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S512x256_S256x256_0_0 : S512x256.Slices ![0, 0] S256x256
  slices_S512x256_S256x256_256_0 : S512x256.Slices ![256, 0] S256x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bitsLt_bf16_f32 : FTy.bits .bf16 < FTy.bits .f32
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S64x1_S64 : S64x1.ShapeCasts S64
  bcast_S_S1x128 : S_.BroadcastsInDim S1x128 (![] : Fin 0 → Fin S1x128.rank)
  concatenates_S1_S1_S2_d0 : Shape.Concatenates [S1, S1] S2 0
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S64x256_S64x1x256 : S64x256.ShapeCasts S64x1x256
  shapeCasts_S256x256_S1x256x256 : S256x256.ShapeCasts S1x256x256
  broadcasts_S64x1x256_S64x256x256 : S64x1x256.Broadcasts S64x256x256
  broadcasts_S1x256x256_S64x256x256 : S1x256x256.Broadcasts S64x256x256
  shapeCasts_S64x256x256_S16384x256 : S64x256x256.ShapeCasts S16384x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  shapeCasts_S16384x128_S64x256x128 : S16384x128.ShapeCasts S64x256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  inb_S1_S1_0 : ∀ a, (![0] : Fin 1 → Nat) a + S1.size a ≤ S1.size a
  h_S1 : 0 < S1.numel
  shapeCasts_S1_S1x1 : S1.ShapeCasts S1x1
  broadcasts_S1x1x128_S64x256x128 : S1x1x128.Broadcasts S64x256x128
  reduces_S64x256x128_S64x256 : S64x256x128.Reduces [2] S64x256
  broadcasts_S1x1_S64x256 : S1x1.Broadcasts S64x256
  dot_S256x256_S256x256_S256x256_1_0_0_1_n_n_wf : DotDims.WF S256x256 S256x256 S256x256 [1] [0] [0] [1] [] []
  dot_S1024x256_S256x256_S1024x256_1_0_0_1_n_n_wf : DotDims.WF S1024x256 S256x256 S1024x256 [1] [0] [0] [1] [] []
  scatter_S128x128_S1_S128x64_01_n_1_0_wf : ScatterDims.WF S128x128 S1 S128x64 [0, 1] [] [1] 0
  scatter_S128_S1_S64_0_n_0_0_wf : ScatterDims.WF S128 S1 S64 [0] [] [0] 0
  scatter_S1x128_S2_S64_0_0_01_0_wf : ScatterDims.WF S1x128 S2 S64 [0] [0] [0, 1] 0
  dot_S16384x256_S256x128_S16384x128_1_0_0_1_n_n_wf : DotDims.WF S16384x256 S256x128 S16384x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S1024x256.size a
  hwx0_0 : ∀ i : grid0.Coords, EltTy.bits .f32 = 32 ∨ (Rect.block (s := S1024x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S1024x256.size a
  hwx0_8 : ∀ i : grid0.Coords, EltTy.bits .f32 = 32 ∨ (Rect.block (s := S1024x256) S64x256.size (cc0_transform_8 i) (hinb0_8 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S128_S1_S64_0_n_0_0 : ScatterDims S128 S1 S64 where
  updateWindowDims := [0]
  insertedWindowDims := []
  scatterDimsToOperandDims := [0]
  indexVectorDim := 0
  wf := scatter_S128_S1_S64_0_n_0_0_wf
def scatter_S1x128_S2_S64_0_0_01_0 : ScatterDims S1x128 S2 S64 where
  updateWindowDims := [0]
  insertedWindowDims := [0]
  scatterDimsToOperandDims := [0, 1]
  indexVectorDim := 0
  wf := scatter_S1x128_S2_S64_0_0_01_0_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v7) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S64x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1024x1x256 : Shape := ⟨3, ![1024, 1, 256]⟩
abbrev S1024x256x256 : Shape := ⟨3, ![1024, 256, 256]⟩
abbrev S1x256x256 : Shape := ⟨3, ![1, 256, 256]⟩
abbrev S1024x256x512 : Shape := ⟨3, ![1024, 256, 512]⟩
abbrev S262144x512 : Shape := ⟨2, ![262144, 512]⟩
abbrev S262144x256 : Shape := ⟨2, ![262144, 256]⟩
abbrev S1x256 : Shape := ⟨2, ![1, 256]⟩
abbrev S_ : Shape := ⟨0, ![]⟩
abbrev S262144x128 : Shape := ⟨2, ![262144, 128]⟩
abbrev S1x128 : Shape := ⟨2, ![1, 128]⟩
abbrev S262144x64 : Shape := ⟨2, ![262144, 64]⟩
abbrev S1x64 : Shape := ⟨2, ![1, 64]⟩
abbrev S262144x1 : Shape := ⟨2, ![262144, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1024x1x256, .f32⟩
  | .hbm, ⟨12, _⟩ => ⟨S1024x256x256, .f32⟩
  | .hbm, ⟨13, _⟩ => ⟨S1x256x256, .f32⟩
  | .hbm, ⟨14, _⟩ => ⟨S1024x256x256, .f32⟩
  | .hbm, ⟨15, _⟩ => ⟨S1024x256x512, .f32⟩
  | .hbm, ⟨16, _⟩ => ⟨S262144x512, .f32⟩
  | .hbm, ⟨17, _⟩ => ⟨S262144x256, .f32⟩
  | .hbm, ⟨18, _⟩ => ⟨S1x256, .f32⟩
  | .hbm, ⟨19, _⟩ => ⟨S262144x256, .f32⟩
  | .hbm, ⟨20, _⟩ => ⟨S262144x256, .f32⟩
  | .hbm, ⟨21, _⟩ => ⟨S_, .f32⟩
  | .hbm, ⟨22, _⟩ => ⟨S262144x256, .f32⟩
  | .hbm, ⟨23, _⟩ => ⟨S262144x256, .f32⟩
  | .hbm, ⟨24, _⟩ => ⟨S262144x128, .f32⟩
  | .hbm, ⟨25, _⟩ => ⟨S1x128, .f32⟩
  | .hbm, ⟨26, _⟩ => ⟨S262144x128, .f32⟩
  | .hbm, ⟨27, _⟩ => ⟨S262144x128, .f32⟩
  | .hbm, ⟨28, _⟩ => ⟨S_, .f32⟩
  | .hbm, ⟨29, _⟩ => ⟨S262144x128, .f32⟩
  | .hbm, ⟨30, _⟩ => ⟨S262144x128, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S262144x1, .f32⟩
  | .hbm, ⟨39, _⟩ => ⟨S1x1, .f32⟩
  | .hbm, ⟨40, _⟩ => ⟨S262144x1, .f32⟩
  | .hbm, ⟨41, _⟩ => ⟨S262144x1, .f32⟩
  | .hbm, ⟨42, _⟩ => ⟨S262144x1, .f32⟩
  | .hbm, ⟨43, _⟩ => ⟨S262144x1, .f32⟩
  | .hbm, ⟨44, _⟩ => ⟨S_, .f32⟩
  | .hbm, ⟨45, _⟩ => ⟨S262144x1, .f32⟩
  | .hbm, ⟨46, _⟩ => ⟨S262144x1, .f32⟩
  | .hbm, ⟨47, _⟩ => ⟨S_, .f32⟩
  | .hbm, ⟨48, _⟩ => ⟨S262144x1, .f32⟩
  | .hbm, ⟨49, _⟩ => ⟨S262144x1, .f32⟩
  | .hbm, ⟨50, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_cst : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_cst_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x1x256_S1024x256x256_0_1_2 : S1024x1x256.BroadcastsInDim S1024x256x256 (![0, 1, 2] : Fin 3 → Fin S1024x256x256.rank)
  bcast_S256x256_S1x256x256_1_2 : S256x256.BroadcastsInDim S1x256x256 (![1, 2] : Fin 2 → Fin S1x256x256.rank)
  bcast_S1x256x256_S1024x256x256_0_1_2 : S1x256x256.BroadcastsInDim S1024x256x256 (![0, 1, 2] : Fin 3 → Fin S1024x256x256.rank)
  concatenates_S1024x256x256_S1024x256x256_S1024x256x512_d2 : Shape.Concatenates [S1024x256x256, S1024x256x256] S1024x256x512 2
  shapeCasts_S1024x256x512_S262144x512 : S1024x256x512.ShapeCasts S262144x512
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  shapeCasts_S262144x1_S1024x256 : S262144x1.ShapeCasts S1024x256
  dot_S262144x512_S512x256_S262144x256_1_0_0_1_n_n_wf : DotDims.WF S262144x512 S512x256 S262144x256 [1] [0] [0] [1] [] []
  dot_S262144x256_S256x128_S262144x128_1_0_0_1_n_n_wf : DotDims.WF S262144x256 S256x128 S262144x128 [1] [0] [0] [1] [] []
  dot_S262144x128_S128x64_S262144x64_1_0_0_1_n_n_wf : DotDims.WF S262144x128 S128x64 S262144x64 [1] [0] [0] [1] [] []
  dot_S262144x64_S64x1_S262144x1_1_0_0_1_n_n_wf : DotDims.WF S262144x64 S64x1 S262144x1 [1] [0] [0] [1] [] []

variable [Facts₀]

def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf

class Facts : Prop extends Facts₀ where

variable [Facts]
-- ==== Proof.Spec.lean ====
/-
  The relation score as one function of the argument arrays.

  For a query row `q` and a support row `s` the feature vector is the concatenation
  `x = [Q q ; S s]` (512 entries); three dense layers with the rectifier `max · 0` follow
  (512 → 256 → 128 → 64), and the score is the logistic function of a last affine map to one number.
  `G` is that score at the index `(q, s)`, over the extended reals.

  Two rearrangements of the same sums are proved here, both valid on ALL extended reals
  (only commutativity and associativity of `+`, and `x * 0 = 0`, are used — no finiteness):
  * a sum over the 512 concatenated features splits into the query half and the support half
    (`dense_split`), so `x W₁ + b₁ = Q W₁ᵃ + (S W₁ᵇ + b₁)`;
  * a layer whose 64 output columns are padded to 128 with zero weights, zero bias and zero
    read-out weights contributes nothing on the padded lanes (`padded_readout`).
-/
import Idealize.ShloMosaic.PureOps.Ideal
import Idealize.ShloMosaic.Lib.ValueIdx

noncomputable section

namespace Cert.Relation

open Idealize.ShloMosaic Idealize.ShloMosaic.ValueIdx

/-- Two rank-1 / rank-2 / rank-3 indices with the same coordinates are equal. -/
theorem ext1 {n0 : Nat} (i j : (⟨1, ![n0]⟩ : Shape).Idx) (h0 : (i 0).val = (j 0).val) : i = j := by
  funext a; apply Fin.ext; match a with | ⟨0, _⟩ => exact h0
theorem ext2 {n0 n1 : Nat} (i j : (⟨2, ![n0, n1]⟩ : Shape).Idx) (h0 : (i 0).val = (j 0).val) (h1 : (i 1).val = (j 1).val) : i = j := by
  funext a; apply Fin.ext; match a with | ⟨0, _⟩ => exact h0 | ⟨1, _⟩ => exact h1
theorem ext3 {n0 n1 n2 : Nat} (i j : (⟨3, ![n0, n1, n2]⟩ : Shape).Idx) (h0 : (i 0).val = (j 0).val) (h1 : (i 1).val = (j 1).val)
    (h2 : (i 2).val = (j 2).val) : i = j := by
  funext a; apply Fin.ext; match a with | ⟨0, _⟩ => exact h0 | ⟨1, _⟩ => exact h1 | ⟨2, _⟩ => exact h2

/-- A matrix / a vector of extended reals, indexed as the printed programs index their arrays. -/
abbrev Mat (a b : Nat) := (⟨2, ![a, b]⟩ : Shape).Idx → EReal
abbrev Row (a : Nat) := (⟨1, ![a]⟩ : Shape).Idx → EReal

/-- One dense layer followed by the rectifier: `max (x · W[:, j] + b[j]) 0`. -/
def dense {n k : Nat} (W : Mat n k) (b : Row k) (x : Fin n → EReal) (j : Fin k) : EReal :=
  max ((∑ i : Fin n, x i * W (ix2 i j)) + b (ix1 j)) 0

/-- The concatenated features of the pair `(q, s)`: the query's 256 entries, then the support's. -/
def pairFeat (Q : Mat 1024 256) (S : Mat 256 256) (q : Fin 1024) (s : Fin 256) (k : Fin 512) : EReal :=
  if h : k.val < 256 then Q (ix2 q ⟨k.val, h⟩) else S (ix2 s ⟨k.val - 256, by have := k.isLt; omega⟩)

/-- The read-out: the logistic function of `x · W₄ + b₄`. -/
def score (W4 : Mat 64 1) (b4 : Row 1) (x : Fin 64 → EReal) : EReal :=
  Ideal.logistic ((∑ j : Fin 64, x j * W4 (ix2 j 0)) + b4 (ix1 0))

/-- The whole result array: the score of every (query, support) pair. -/
def G (Q : Mat 1024 256) (S : Mat 256 256) (W1 : Mat 512 256) (b1 : Row 256) (W2 : Mat 256 128) (b2 : Row 128)
    (W3 : Mat 128 64) (b3 : Row 64) (W4 : Mat 64 1) (b4 : Row 1) : Mat 1024 256 := fun i =>
  score W4 b4 (dense W3 b3 (dense W2 b2 (dense W1 b1 (pairFeat Q S (i 0) (i 1)))))

/-- A sum over 512 indices is the sum over the first 256 plus the sum over the last 256. -/
theorem sum_split_256 (f : Fin 512 → EReal) :
    ∑ k : Fin 512, f k = (∑ e : Fin 256, f ⟨e.val, by have := e.isLt; omega⟩) + ∑ e : Fin 256, f ⟨256 + e.val, by have := e.isLt; omega⟩ :=
  Fin.sum_univ_add (fun k : Fin (256 + 256) => f k)

/-- A sum over 128 indices is the sum over the first 64 plus the sum over the last 64. -/
theorem sum_split_64 (f : Fin 128 → EReal) :
    ∑ k : Fin 128, f k = (∑ e : Fin 64, f ⟨e.val, by have := e.isLt; omega⟩) + ∑ e : Fin 64, f ⟨64 + e.val, by have := e.isLt; omega⟩ :=
  Fin.sum_univ_add (fun k : Fin (64 + 64) => f k)

/-- THE FACTORED FIRST LAYER. Multiplying the query by the top half of `W₁` and the support by the bottom half,
    and adding the bias to the support's product, is the first dense layer of the concatenated features:
    the sum over the 512 features split at 256, and `(a + b) + c = a + (b + c)`. -/
theorem dense_split (Q : Mat 1024 256) (S : Mat 256 256) (W1 : Mat 512 256) (b1 : Row 256)
    (q : Fin 1024) (s : Fin 256) (c : Fin 256) :
    max ((∑ e : Fin 256, Q (ix2 q e) * W1 (ix2 (⟨e.val, by have := e.isLt; omega⟩ : Fin 512) c))
        + ((∑ e : Fin 256, S (ix2 s e) * W1 (ix2 (⟨256 + e.val, by have := e.isLt; omega⟩ : Fin 512) c)) + b1 (ix1 c))) 0
      = dense W1 b1 (pairFeat Q S q s) c := by
  unfold dense
  rw [sum_split_256, add_assoc]
  have hq : (∑ e : Fin 256, pairFeat Q S q s (⟨e.val, by have := e.isLt; omega⟩ : Fin 512) * W1 (ix2 (⟨e.val, by have := e.isLt; omega⟩ : Fin 512) c))
      = ∑ e : Fin 256, Q (ix2 q e) * W1 (ix2 (⟨e.val, by have := e.isLt; omega⟩ : Fin 512) c) := by
    refine Finset.sum_congr rfl fun e _ => ?_
    unfold pairFeat
    rw [dif_pos (show (⟨e.val, _⟩ : Fin 512).val < 256 from e.isLt)]
  have hs : (∑ e : Fin 256, pairFeat Q S q s (⟨256 + e.val, by have := e.isLt; omega⟩ : Fin 512) * W1 (ix2 (⟨256 + e.val, by have := e.isLt; omega⟩ : Fin 512) c))
      = ∑ e : Fin 256, S (ix2 s e) * W1 (ix2 (⟨256 + e.val, by have := e.isLt; omega⟩ : Fin 512) c) := by
    refine Finset.sum_congr rfl fun e _ => ?_
    unfold pairFeat
    rw [dif_neg (show ¬ (⟨256 + e.val, _⟩ : Fin 512).val < 256 from by show ¬ 256 + e.val < 256; omega)]
    have he : (⟨(⟨256 + e.val, by have := e.isLt; omega⟩ : Fin 512).val - 256, by have := e.isLt; show 256 + e.val - 256 < 256; omega⟩ : Fin 256) = e :=
      Fin.ext (by show 256 + e.val - 256 = e.val; omega)
    rw [he]
  rw [hq, hs]

/-- THE PADDED TAIL. With the third layer's weights, its bias and the read-out weights padded from 64 to 128
    columns by zeros, the read-out sum over the 128 lanes is the sum over the 64 true ones: on a padded lane
    the read-out weight is `0` and `x * 0 = 0` for every extended real. -/
theorem padded_readout (W3 : Mat 128 64) (b3 : Row 64) (W4 : Mat 64 1)
    (W3p : Mat 128 128) (b3p : Row 128) (w4p : Mat 1 128) (x : Fin 128 → EReal)
    (hW : ∀ (k j : Fin 128), W3p (ix2 k j) = if h : j.val < 64 then W3 (ix2 k ⟨j.val, h⟩) else 0)
    (hb : ∀ j : Fin 128, b3p (ix1 j) = if h : j.val < 64 then b3 (ix1 ⟨j.val, h⟩) else 0)
    (hw : ∀ j : Fin 128, w4p (ix2 0 j) = if h : j.val < 64 then W4 (ix2 ⟨j.val, h⟩ 0) else 0) :
    (∑ j : Fin 128, max ((∑ k : Fin 128, x k * W3p (ix2 k j)) + b3p (ix1 j)) 0 * w4p (ix2 0 j))
      = ∑ j : Fin 64, dense W3 b3 x j * W4 (ix2 j 0) := by
  rw [sum_split_64]
  have hpad : (∑ e : Fin 64, max ((∑ k : Fin 128, x k * W3p (ix2 k (⟨64 + e.val, by have := e.isLt; omega⟩ : Fin 128))) + b3p (ix1 (⟨64 + e.val, by have := e.isLt; omega⟩ : Fin 128))) 0
      * w4p (ix2 0 (⟨64 + e.val, by have := e.isLt; omega⟩ : Fin 128))) = 0 := by
    refine Finset.sum_eq_zero fun e _ => ?_
    rw [hw, dif_neg (by show ¬ 64 + e.val < 64; omega), mul_zero]
  rw [hpad, add_zero]
  refine Finset.sum_congr rfl fun e _ => ?_
  unfold dense
  rw [hw, hb, dif_pos (show (⟨e.val, _⟩ : Fin 128).val < 64 from e.isLt), dif_pos (show (⟨e.val, _⟩ : Fin 128).val < 64 from e.isLt)]
  congr 3
  refine Finset.sum_congr rfl fun k _ => ?_
  rw [hW, dif_pos (show (⟨e.val, _⟩ : Fin 128).val < 64 from e.isLt)]

end Cert.Relation

end
-- ==== Proof.RefRead.lean ====
/-
  The reference program, read at an index, is the relation score `G`.

  The reference lays the pair `(q, s)` out as row `q * 256 + s` of a 262144-row matrix: the row's 512 features
  are the concatenation of query row `q` and support row `s`; three dense layers with the rectifier follow
  row by row, and the last affine map's result `z` goes through `1 / (1 + exp (-z))`, which is the logistic
  function; the final reshape puts row `q * 256 + s` at index `(q, s)`.
-/
import proofs.«172009_j31885837205813_2_alg».proof.Proof.Gen.ReferenceIdeal.Read
import proofs.«172009_j31885837205813_2_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Read Cert.Relation

variable (x0 : Mat 1024 256) (x1 : Mat 256 256) (x3 : Mat 512 256) (x4 : Row 256) (x5 : Mat 256 128) (x6 : Row 128)
  (x7 : Mat 128 64) (x8 : Row 64) (x9 : Mat 64 1) (x10 : Row 1)

/-- The row of the flattened pair matrix that holds the pair `(q, s)`. -/
def row (q : Fin 1024) (s : Fin 256) : Fin 262144 := ⟨q.val * 256 + s.val, by have := q.isLt; have := s.isLt; omega⟩

/-- The concatenated, flattened features: row `q * 256 + s`, column `k`, is feature `k` of the pair. -/
theorem feat_at (q : Fin 1024) (s : Fin 256) (k : Fin 512) :
    val_main_v5 (F := Ideal) x0 x1 (ix2 (row q s) k) = pairFeat x0 x1 q s k := by
  have hq := q.isLt; have hs := s.isLt; have hk512 := k.isLt
  rw [val_main_v5_apply]
  unfold val_main_v4 pairFeat
  by_cases hk : k.val < 256
  · rw [dif_pos hk]
    refine (concatenate_pair_apply_left (t := S1024x256x512) (s₁ := S1024x256x256) (s₂ := S1024x256x256) (2 : Fin 3) (val_main_v1 (F := Ideal) x0) (val_main_v3 (F := Ideal) x1) _ (idx_main_v5 (ix2 (row q s) k)) rfl (ix3 q s (⟨k.val, hk⟩ : Fin 256)) ?_).trans ?_
    · intro b
      match b with
      | ⟨0, _⟩ => show q.val = ((q.val * 256 + s.val) * 512 + k.val) / 131072; omega
      | ⟨1, _⟩ => show s.val = ((q.val * 256 + s.val) * 512 + k.val) / 512 % 256; omega
      | ⟨2, _⟩ => show k.val = ((q.val * 256 + s.val) * 512 + k.val) % 512; omega
    · rw [val_main_v1_apply, val_main_v0_apply]
      exact congrArg x0 (ext2 _ _ rfl rfl)
  · rw [dif_neg hk]
    refine (concatenate_pair_apply_right (t := S1024x256x512) (s₁ := S1024x256x256) (s₂ := S1024x256x256) (2 : Fin 3) (val_main_v1 (F := Ideal) x0) (val_main_v3 (F := Ideal) x1) _ (idx_main_v5 (ix2 (row q s) k)) rfl rfl (ix3 q s (⟨k.val - 256, by omega⟩ : Fin 256)) ?_ ?_).trans ?_
    · intro b hb
      match b with
      | ⟨0, _⟩ => show q.val = ((q.val * 256 + s.val) * 512 + k.val) / 131072; omega
      | ⟨1, _⟩ => show s.val = ((q.val * 256 + s.val) * 512 + k.val) / 512 % 256; omega
      | ⟨2, _⟩ => exact absurd rfl hb
    · show k.val - 256 + 256 = ((q.val * 256 + s.val) * 512 + k.val) % 512; omega
    · rw [val_main_v3_apply, val_main_v2_apply]
      exact congrArg x1 (ext2 _ _ rfl rfl)

/-- The first layer, row by row. -/
theorem layer1_at (q : Fin 1024) (s : Fin 256) (c : Fin 256) :
    val_main_v10 (F := Ideal) x0 x1 x3 x4 (ix2 (row q s) c) = dense x3 x4 (pairFeat x0 x1 q s) c := by
  rw [val_main_v10_apply, val_main_v9_apply, val_main_v6_apply, val_main_v8_apply, val_main_v7_apply,
    val_main_call0_v0_apply, val_main_call0_cst_apply]
  simp only [Ideal.maximumf_def, Ideal.addf_def, Ideal.ofBits_def, Ideal.ofBits_zero_f32]
  unfold dense
  congr 2
  · refine Finset.sum_congr rfl fun k _ => ?_
    rw [show lidx_main_v6 (ix2 (row q s) c) k = ix2 (row q s) k from ext2 _ _ rfl rfl,
      show ridx_main_v6 (ix2 (row q s) c) k = ix2 k c from ext2 _ _ rfl rfl, feat_at]
  · exact congrArg x4 (ext1 _ _ rfl)

/-- The second layer, row by row. -/
theorem layer2_at (q : Fin 1024) (s : Fin 256) (c : Fin 128) :
    val_main_v15 (F := Ideal) x0 x1 x3 x4 x5 x6 (ix2 (row q s) c) = dense x5 x6 (dense x3 x4 (pairFeat x0 x1 q s)) c := by
  rw [val_main_v15_apply, val_main_v14_apply, val_main_v11_apply, val_main_v13_apply, val_main_v12_apply,
    val_main_call1_v0_apply, val_main_call1_cst_apply]
  simp only [Ideal.maximumf_def, Ideal.addf_def, Ideal.ofBits_def, Ideal.ofBits_zero_f32]
  unfold dense
  congr 2
  · refine Finset.sum_congr rfl fun k _ => ?_
    rw [show lidx_main_v11 (ix2 (row q s) c) k = ix2 (row q s) k from ext2 _ _ rfl rfl,
      show ridx_main_v11 (ix2 (row q s) c) k = ix2 k c from ext2 _ _ rfl rfl, layer1_at]
    rfl
  · exact congrArg x6 (ext1 _ _ rfl)

/-- The third layer, row by row. -/
theorem layer3_at (q : Fin 1024) (s : Fin 256) (c : Fin 64) :
    val_main_v20 (F := Ideal) x0 x1 x3 x4 x5 x6 x7 x8 (ix2 (row q s) c)
      = dense x7 x8 (dense x5 x6 (dense x3 x4 (pairFeat x0 x1 q s))) c := by
  rw [val_main_v20_apply, val_main_v19_apply, val_main_v16_apply, val_main_v18_apply, val_main_v17_apply,
    val_main_call2_v0_apply, val_main_call2_cst_apply]
  simp only [Ideal.maximumf_def, Ideal.addf_def, Ideal.ofBits_def, Ideal.ofBits_zero_f32]
  unfold dense
  congr 2
  · refine Finset.sum_congr rfl fun k _ => ?_
    rw [show lidx_main_v16 (ix2 (row q s) c) k = ix2 (row q s) k from ext2 _ _ rfl rfl,
      show ridx_main_v16 (ix2 (row q s) c) k = ix2 k c from ext2 _ _ rfl rfl, layer2_at]
    rfl
  · exact congrArg x8 (ext1 _ _ rfl)

/-- The read-out, row by row: `1 / (1 + exp (-z))` is the logistic function of `z`. -/
theorem score_at (q : Fin 1024) (s : Fin 256) :
    val_main_v30 (F := Ideal) x0 x1 x3 x4 x5 x6 x7 x8 x9 x10 (ix2 (row q s) (0 : Fin 1))
      = score x9 x10 (dense x7 x8 (dense x5 x6 (dense x3 x4 (pairFeat x0 x1 q s)))) := by
  rw [val_main_v30_apply, val_main_v29_apply, val_main_cst_0_apply, val_main_v28_apply, val_main_v27_apply,
    val_main_cst_apply, val_main_v26_apply, val_main_v25_apply, val_main_v24_apply, val_main_v21_apply,
    val_main_v23_apply, val_main_v22_apply]
  simp only [Ideal.hostDivf_def, Ideal.addf_def, Ideal.ofBits_def, Ideal.ofBits_one_f32, Ideal.hostUnary_exp_def,
    Ideal.hostNegf_def, Ideal.negf_def]
  unfold score Ideal.logistic
  congr 5
  · refine Finset.sum_congr rfl fun k _ => ?_
    rw [show lidx_main_v21 (ix2 (row q s) (0 : Fin 1)) k = ix2 (row q s) k from ext2 _ _ rfl rfl,
      show ridx_main_v21 (ix2 (row q s) (0 : Fin 1)) k = ix2 k (0 : Fin 1) from ext2 _ _ rfl rfl, layer3_at]
  · exact congrArg x10 (ext1 _ _ rfl)

/-- THE REFERENCE IS `G`: its result array, index by index, is the relation score. -/
theorem ref_eq : val_main_v31 (F := Ideal) x0 x1 x3 x4 x5 x6 x7 x8 x9 x10 = G x0 x1 x3 x4 x5 x6 x7 x8 x9 x10 := by
  funext i
  obtain ⟨q, s, rfl⟩ : ∃ (q : Fin 1024) (s : Fin 256), i = ix2 q s := ⟨i 0, i 1, eq_ix2 i⟩
  rw [val_main_v31_apply]
  rw [show idx_main_v31 (ix2 q s) = ix2 (row q s) (0 : Fin 1) from ext2 _ _ (by show (q.val * 256 + s.val) / 1 = q.val * 256 + s.val; omega) rfl]
  rw [score_at]
  rfl

end Cert.ReferenceIdeal.RefValue

end
-- ==== Proof.KernelPay.lean ====
/-
  The kernel body's arithmetic, read at an index.

  One grid point handles 64 query rows against all 256 support rows. The body adds the query projection
  (row `p`) and the support projection (row `s`) for every pair, applies the rectifier, flattens the
  pairs to 16384 rows (`row = p * 256 + s`), runs two matrix products with bias and rectifier on the
  flattened rows, un-flattens, multiplies lane by lane with the read-out weights and sums the 128 lanes.
  Here each stage is read at an index: a shape cast keeps the row-major position, a broadcast repeats
  the unit axes, a matrix product into a zero accumulator is the sum over the contracted index.
-/
import proofs.«172009_j31885837205813_2_alg».proof.Proof.Gen.KernelIdeal.Skeleton
import proofs.«172009_j31885837205813_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Pay

open Idealize.ShloMosaic Idealize.ShloMosaic.ValueIdx Cert.KernelIdeal Cert.KernelIdeal.Gen

/-! ## Layout operations at explicit coordinates -/

section layout
variable {α : Type}

/-- Flattening `[64, 256, 256]` to `[16384, 256]`: row `r` is the pair `(r / 256, r % 256)`. -/
theorem flatten_apply (X : S64x256x256.Idx → α) (h : S64x256x256.ShapeCasts S16384x256) (r : Fin 16384) (c : Fin 256) :
    shapeCast S16384x256 X h (ix2 r c)
      = X (ix3 (⟨r.val / 256, by have := r.isLt; omega⟩ : Fin 64) (⟨r.val % 256, by omega⟩ : Fin 256) c) :=
  shapeCast_apply X h _ _ (by
    rw [Shape.rowMajor_val_three, Shape.rowMajor_val_two]
    show (r.val / 256 * 256 + r.val % 256) * 256 + c.val = r.val * 256 + c.val
    omega)

/-- Un-flattening `[16384, 128]` to `[64, 256, 128]`: the pair `(p, s)` is row `p * 256 + s`. -/
theorem unflatten_apply (X : S16384x128.Idx → α) (h : S16384x128.ShapeCasts S64x256x128) (p : Fin 64) (s : Fin 256) (j : Fin 128) :
    shapeCast S64x256x128 X h (ix3 p s j)
      = X (ix2 (⟨p.val * 256 + s.val, by have := p.isLt; have := s.isLt; omega⟩ : Fin 16384) j) :=
  shapeCast_apply X h _ _ (by
    rw [Shape.rowMajor_val_three, Shape.rowMajor_val_two]
    show (p.val * 256 + s.val) * 128 + j.val = (p.val * 256 + s.val) * 128 + j.val
    rfl)

/-- A `[64, 256]` array repeated along a new middle axis: at `(p, s, c)` it is the array at `(p, c)`. -/
theorem query_bcast_apply (X : S64x256.Idx → α) (h1 : S64x256.ShapeCasts S64x1x256) (h2 : S64x1x256.Broadcasts S64x256x256)
    (p : Fin 64) (s : Fin 256) (c : Fin 256) :
    broadcastTo S64x256x256 (shapeCast S64x1x256 X h1) h2 (ix3 p s c) = X (ix2 p c) := by
  refine (broadcastTo_apply _ h2 (ix3 p s c) (ix3 p (0 : Fin 1) c) (fun a => ?_)).trans ?_
  · match a with
    | ⟨0, _⟩ => show p.val = if (64 : Nat) = 1 then 0 else p.val; rw [if_neg (by decide)]
    | ⟨1, _⟩ => show 0 = if (1 : Nat) = 1 then 0 else s.val; rw [if_pos rfl]
    | ⟨2, _⟩ => show c.val = if (256 : Nat) = 1 then 0 else c.val; rw [if_neg (by decide)]
  · exact shapeCast_apply X h1 _ _ (by
      rw [Shape.rowMajor_val_two, Shape.rowMajor_val_three]
      show p.val * 256 + c.val = (p.val * 1 + 0) * 256 + c.val
      omega)

/-- A `[256, 256]` array repeated along a new leading axis: at `(p, s, c)` it is the array at `(s, c)`. -/
theorem support_bcast_apply (X : S256x256.Idx → α) (h1 : S256x256.ShapeCasts S1x256x256) (h2 : S1x256x256.Broadcasts S64x256x256)
    (p : Fin 64) (s : Fin 256) (c : Fin 256) :
    broadcastTo S64x256x256 (shapeCast S1x256x256 X h1) h2 (ix3 p s c) = X (ix2 s c) := by
  refine (broadcastTo_apply _ h2 (ix3 p s c) (ix3 (0 : Fin 1) s c) (fun a => ?_)).trans ?_
  · match a with
    | ⟨0, _⟩ => show 0 = if (1 : Nat) = 1 then 0 else p.val; rw [if_pos rfl]
    | ⟨1, _⟩ => show s.val = if (256 : Nat) = 1 then 0 else s.val; rw [if_neg (by decide)]
    | ⟨2, _⟩ => show c.val = if (256 : Nat) = 1 then 0 else c.val; rw [if_neg (by decide)]
  · exact shapeCast_apply X h1 _ _ (by
      rw [Shape.rowMajor_val_two, Shape.rowMajor_val_three]
      show s.val * 256 + c.val = (0 * 256 + s.val) * 256 + c.val
      omega)

/-- A bias vector repeated over the 16384 rows. -/
theorem bias_bcast_apply (X : S128.Idx → α) (h1 : S128.ShapeCasts S1x128) (h2 : S1x128.Broadcasts S16384x128)
    (r : Fin 16384) (k : Fin 128) :
    broadcastTo S16384x128 (shapeCast S1x128 X h1) h2 (ix2 r k) = X (ix1 k) :=
  (broadcastTo_1b_ab_apply _ h2 r k).trans (shapeCast_a_1a_apply X h1 0 k)

/-- The read-out row repeated over all pairs: at `(p, s, j)` it is the row at `(0, j)`. -/
theorem readout_bcast_apply (X : S1x128.Idx → α) (h1 : S1x128.ShapeCasts S1x1x128) (h2 : S1x1x128.Broadcasts S64x256x128)
    (p : Fin 64) (s : Fin 256) (j : Fin 128) :
    broadcastTo S64x256x128 (shapeCast S1x1x128 X h1) h2 (ix3 p s j) = X (ix2 (0 : Fin 1) j) := by
  refine (broadcastTo_apply _ h2 (ix3 p s j) (ix3 (0 : Fin 1) (0 : Fin 1) j) (fun a => ?_)).trans ?_
  · match a with
    | ⟨0, _⟩ => show 0 = if (1 : Nat) = 1 then 0 else p.val; rw [if_pos rfl]
    | ⟨1, _⟩ => show 0 = if (1 : Nat) = 1 then 0 else s.val; rw [if_pos rfl]
    | ⟨2, _⟩ => show j.val = if (128 : Nat) = 1 then 0 else j.val; rw [if_neg (by decide)]
  · exact shapeCast_apply X h1 _ _ (by
      rw [Shape.rowMajor_val_two, Shape.rowMajor_val_three]
      show 0 * 128 + j.val = (0 * 1 + 0) * 128 + j.val
      omega)

end layout

/-! ## The two matrix products: into a zero accumulator, the sum over the contracted index -/

theorem mm1_lhs0 (i : S16384x128.Idx) (q : dot_S16384x256_S256x128_S16384x128_1_0_0_1_n_n.contr.Idx) : (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide), dif_pos (show (0 : Fin S16384x256.rank) ∈ dot_S16384x256_S256x128_S16384x128_1_0_0_1_n_n.lhsNonContracting by decide)]
  rfl
theorem mm1_lhs1 (i : S16384x128.Idx) (q : dot_S16384x256_S256x128_S16384x128_1_0_0_1_n_n.contr.Idx) : (dot_S16384x256_S256x128_S16384x128_1_0_0_1_n_n.lhsIdx i q 1).val = (q ⟨0, by decide⟩).val :=
  dot_S16384x256_S256x128_S16384x128_1_0_0_1_n_n.lhsIdx_val_of_single rfl i q
theorem mm1_rhs0 (i : S16384x128.Idx) (q : dot_S16384x256_S256x128_S16384x128_1_0_0_1_n_n.contr.Idx) : (dot_S16384x256_S256x128_S16384x128_1_0_0_1_n_n.rhsIdx i q 0).val = (q ⟨0, by decide⟩).val :=
  dot_S16384x256_S256x128_S16384x128_1_0_0_1_n_n.rhsIdx_val_of_single rfl i q
theorem mm1_rhs1 (i : S16384x128.Idx) (q : dot_S16384x256_S256x128_S16384x128_1_0_0_1_n_n.contr.Idx) : (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide), dif_pos (show (1 : Fin S256x128.rank) ∈ dot_S16384x256_S256x128_S16384x128_1_0_0_1_n_n.rhsNonContracting by decide)]
  rfl

theorem mm1_apply (L : FVec Ideal S16384x256 .bf16) (R : FVec Ideal S256x128 .bf16) (r : Fin 16384) (k : Fin 128) :
    matmul dot_S16384x256_S256x128_S16384x128_1_0_0_1_n_n none L R (constant S16384x128 .f32 0x00000000#32) (ix2 r k)
      = ∑ c : Fin 256, L (ix2 r c) * R (ix2 c k) := by
  simp only [matmul]
  rw [Ideal.matmul_constant_zero_apply, ← Equiv.sum_comp (contrEquiv1 dot_S16384x256_S256x128_S16384x128_1_0_0_1_n_n 256 rfl rfl).symm]
  refine Finset.sum_congr rfl fun c _ => ?_
  have hk := contrEquiv1_symm_val dot_S16384x256_S256x128_S16384x128_1_0_0_1_n_n 256 rfl rfl c
  have el : dot_S16384x256_S256x128_S16384x128_1_0_0_1_n_n.lhsIdx (ix2 r k) ((contrEquiv1 dot_S16384x256_S256x128_S16384x128_1_0_0_1_n_n 256 rfl rfl).symm c) = ix2 r c :=
    funext fun a => Fin.ext (by
      match a with
      | ⟨0, _⟩ => exact mm1_lhs0 _ _
      | ⟨1, _⟩ => exact (mm1_lhs1 _ _).trans hk)
  have er : dot_S16384x256_S256x128_S16384x128_1_0_0_1_n_n.rhsIdx (ix2 r k) ((contrEquiv1 dot_S16384x256_S256x128_S16384x128_1_0_0_1_n_n 256 rfl rfl).symm c) = ix2 c k :=
    funext fun a => Fin.ext (by
      match a with
      | ⟨0, _⟩ => exact (mm1_rhs0 _ _).trans hk
      | ⟨1, _⟩ => exact mm1_rhs1 _ _)
  rw [el, er]

theorem mm2_lhs0 (i : S16384x128.Idx) (q : dot_S16384x128_S128x128_S16384x128_1_0_0_1_n_n.contr.Idx) : (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem mm2_lhs1 (i : S16384x128.Idx) (q : dot_S16384x128_S128x128_S16384x128_1_0_0_1_n_n.contr.Idx) : (dot_S16384x128_S128x128_S16384x128_1_0_0_1_n_n.lhsIdx i q 1).val = (q ⟨0, by decide⟩).val :=
  dot_S16384x128_S128x128_S16384x128_1_0_0_1_n_n.lhsIdx_val_of_single rfl i q
theorem mm2_rhs0 (i : S16384x128.Idx) (q : dot_S16384x128_S128x128_S16384x128_1_0_0_1_n_n.contr.Idx) : (dot_S16384x128_S128x128_S16384x128_1_0_0_1_n_n.rhsIdx i q 0).val = (q ⟨0, by decide⟩).val :=
  dot_S16384x128_S128x128_S16384x128_1_0_0_1_n_n.rhsIdx_val_of_single rfl i q
theorem mm2_rhs1 (i : S16384x128.Idx) (q : dot_S16384x128_S128x128_S16384x128_1_0_0_1_n_n.contr.Idx) : (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

theorem mm2_apply (L : FVec Ideal S16384x128 .bf16) (R : FVec Ideal S128x128 .bf16) (r : Fin 16384) (k : Fin 128) :
    matmul dot_S16384x128_S128x128_S16384x128_1_0_0_1_n_n none L R (constant S16384x128 .f32 0x00000000#32) (ix2 r k)
      = ∑ c : Fin 128, L (ix2 r c) * R (ix2 c k) := by
  simp only [matmul]
  rw [Ideal.matmul_constant_zero_apply, ← Equiv.sum_comp (contrEquiv1 dot_S16384x128_S128x128_S16384x128_1_0_0_1_n_n 128 rfl rfl).symm]
  refine Finset.sum_congr rfl fun c _ => ?_
  have hk := contrEquiv1_symm_val dot_S16384x128_S128x128_S16384x128_1_0_0_1_n_n 128 rfl rfl c
  have el : dot_S16384x128_S128x128_S16384x128_1_0_0_1_n_n.lhsIdx (ix2 r k) ((contrEquiv1 dot_S16384x128_S128x128_S16384x128_1_0_0_1_n_n 128 rfl rfl).symm c) = ix2 r c :=
    funext fun a => Fin.ext (by
      match a with
      | ⟨0, _⟩ => exact mm2_lhs0 _ _
      | ⟨1, _⟩ => exact (mm2_lhs1 _ _).trans hk)
  have er : dot_S16384x128_S128x128_S16384x128_1_0_0_1_n_n.rhsIdx (ix2 r k) ((contrEquiv1 dot_S16384x128_S128x128_S16384x128_1_0_0_1_n_n 128 rfl rfl).symm c) = ix2 c k :=
    funext fun a => Fin.ext (by
      match a with
      | ⟨0, _⟩ => exact (mm2_rhs0 _ _).trans hk
      | ⟨1, _⟩ => exact mm2_rhs1 _ _)
  rw [el, er]

/-! ## The body's stages -/

variable (x0 : Vec Ideal S64x256 .f32) (x3 : Vec Ideal S256x256 .bf16) (x13 : Vec Ideal S256x128 .bf16) (x16 : Vec Ideal S128 .f32)
  (x23 : Vec Ideal S128x128 .bf16) (x26 : Vec Ideal S128 .f32) (x34 : Vec Ideal S1x128 .f32)

/-- The first hidden layer of all 64 × 256 pairs, flattened to 16384 rows. -/
def hid1 : FVec Ideal S16384x256 .bf16 :=
  have v1 : FVec Ideal S64x256 .f32 := shapeCast S64x256 x0 shapeCasts_S64x256_S64x256
  have v2 : FVec Ideal S64x256 .bf16 := truncf .bf16 v1 bitsLt_bf16_f32
  have v4 : FVec Ideal S256x256 .bf16 := shapeCast S256x256 x3 shapeCasts_S256x256_S256x256
  have v5 : FVec Ideal S64x1x256 .bf16 := shapeCast S64x1x256 v2 shapeCasts_S64x256_S64x1x256
  have v6 : FVec Ideal S1x256x256 .bf16 := shapeCast S1x256x256 v4 shapeCasts_S256x256_S1x256x256
  have v7 : FVec Ideal S64x256x256 .bf16 := broadcastTo S64x256x256 v5 broadcasts_S64x1x256_S64x256x256
  have v8 : FVec Ideal S64x256x256 .bf16 := broadcastTo S64x256x256 v6 broadcasts_S1x256x256_S64x256x256
  have v9 : FVec Ideal S64x256x256 .bf16 := addf v7 v8
  have cst : Ideal .bf16 := Scalar.ofBits .bf16 0x0000#16
  have v10 : FVec Ideal S64x256x256 .bf16 := broadcast S64x256x256 cst
  have v11 : FVec Ideal S64x256x256 .bf16 := maximumf v9 v10
  have v12 : FVec Ideal S16384x256 .bf16 := shapeCast S16384x256 v11 shapeCasts_S64x256x256_S16384x256
  v12

theorem hid1_at (r : Fin 16384) (c : Fin 256) :
    hid1 x0 x3 (ix2 r c)
      = max (x0 (ix2 (⟨r.val / 256, by have := r.isLt; omega⟩ : Fin 64) c) + x3 (ix2 (⟨r.val % 256, by omega⟩ : Fin 256) c)) 0 := by
  simp only [hid1]
  rw [flatten_apply, maximumf_apply, addf_apply, broadcast_apply, query_bcast_apply, support_bcast_apply, truncf_apply,
    shapeCast_self, shapeCast_self]
  show max _ (Ideal.ofBits .bf16 0x0000#16) = _
  rw [Ideal.ofBits_zero_bf16]

/-- The second hidden layer on the flattened rows. -/
def hid2 : FVec Ideal S16384x128 .bf16 :=
  have v12 : FVec Ideal S16384x256 .bf16 := hid1 x0 x3
  have v14 : FVec Ideal S256x128 .bf16 := shapeCast S256x128 x13 shapeCasts_S256x128_S256x128
  have cst_5 : FVec Ideal S16384x128 .f32 := constant S16384x128 .f32 0x00000000#32
  have v15 : FVec Ideal S16384x128 .f32 := matmul dot_S16384x256_S256x128_S16384x128_1_0_0_1_n_n none v12 v14 cst_5
  have v17 : FVec Ideal S1x128 .f32 := shapeCast S1x128 x16 shapeCasts_S128_S1x128
  have v18 : FVec Ideal S16384x128 .f32 := broadcastTo S16384x128 v17 broadcasts_S1x128_S16384x128
  have v19 : FVec Ideal S16384x128 .f32 := addf v15 v18
  have cst_7 : Ideal .f32 := Scalar.ofBits .f32 0x00000000#32
  have v20 : FVec Ideal S16384x128 .f32 := broadcast S16384x128 cst_7
  have v21 : FVec Ideal S16384x128 .f32 := maximumf v19 v20
  have v22 : FVec Ideal S16384x128 .bf16 := truncf .bf16 v21 bitsLt_bf16_f32
  v22

theorem hid2_at (r : Fin 16384) (k : Fin 128) :
    hid2 x0 x3 x13 x16 (ix2 r k) = max ((∑ c : Fin 256, hid1 x0 x3 (ix2 r c) * x13 (ix2 c k)) + x16 (ix1 k)) 0 := by
  simp only [hid2]
  rw [truncf_apply, maximumf_apply, addf_apply, broadcast_apply, mm1_apply, bias_bcast_apply, shapeCast_self]
  show max _ (Ideal.ofBits .f32 0x00000000#32) = _
  rw [Ideal.ofBits_zero_f32]

/-- The third hidden layer (padded to 128 columns) on the flattened rows. -/
def hid3 : FVec Ideal S16384x128 .f32 :=
  have v22 : FVec Ideal S16384x128 .bf16 := hid2 x0 x3 x13 x16
  have v24 : FVec Ideal S128x128 .bf16 := shapeCast S128x128 x23 shapeCasts_S128x128_S128x128
  have cst_10 : FVec Ideal S16384x128 .f32 := constant S16384x128 .f32 0x00000000#32
  have v25 : FVec Ideal S16384x128 .f32 := matmul dot_S16384x128_S128x128_S16384x128_1_0_0_1_n_n none v22 v24 cst_10
  have v27 : FVec Ideal S128 .f32 := shapeCast S128 x26 shapeCasts_S128_S128
  have v28 : FVec Ideal S1x128 .f32 := shapeCast S1x128 v27 shapeCasts_S128_S1x128
  have v29 : FVec Ideal S16384x128 .f32 := broadcastTo S16384x128 v28 broadcasts_S1x128_S16384x128
  have v30 : FVec Ideal S16384x128 .f32 := addf v25 v29
  have cst_12 : Ideal .f32 := Scalar.ofBits .f32 0x00000000#32
  have v31 : FVec Ideal S16384x128 .f32 := broadcast S16384x128 cst_12
  have v32 : FVec Ideal S16384x128 .f32 := maximumf v30 v31
  v32

theorem hid3_at (r : Fin 16384) (j : Fin 128) :
    hid3 x0 x3 x13 x16 x23 x26 (ix2 r j) = max ((∑ k : Fin 128, hid2 x0 x3 x13 x16 (ix2 r k) * x23 (ix2 k j)) + x26 (ix1 j)) 0 := by
  simp only [hid3]
  rw [maximumf_apply, addf_apply, broadcast_apply, mm2_apply, bias_bcast_apply, shapeCast_self, shapeCast_self]
  show max _ (Ideal.ofBits .f32 0x00000000#32) = _
  rw [Ideal.ofBits_zero_f32]

/-- The body's lane products are the third layer, un-flattened, times the read-out row. -/
theorem pay3_eq : k0_pay3 x0 x3 x13 x16 x23 x26 x34
    = (have v33 : FVec Ideal S64x256x128 .f32 := shapeCast S64x256x128 (hid3 x0 x3 x13 x16 x23 x26) shapeCasts_S16384x128_S64x256x128
       have v35 : FVec Ideal S1x128 .f32 := shapeCast S1x128 x34 shapeCasts_S1x128_S1x128
       have v36 : FVec Ideal S1x1x128 .f32 := shapeCast S1x1x128 v35 shapeCasts_S1x128_S1x1x128
       have v39 : FVec Ideal S64x256x128 .f32 := broadcastTo S64x256x128 v36 broadcasts_S1x1x128_S64x256x128
       have v40 : FVec Ideal S64x256x128 .f32 := mulf v33 v39
       v40) := rfl

theorem pay3_at (p : Fin 64) (s : Fin 256) (j : Fin 128) :
    k0_pay3 x0 x3 x13 x16 x23 x26 x34 (ix3 p s j)
      = hid3 x0 x3 x13 x16 x23 x26 (ix2 (⟨p.val * 256 + s.val, by have := p.isLt; have := s.isLt; omega⟩ : Fin 16384) j) * x34 (ix2 (0 : Fin 1) j) := by
  rw [pay3_eq]
  simp only []
  rw [mulf_apply, unflatten_apply, readout_bcast_apply, shapeCast_self]

end Cert.KernelIdeal.Pay

end
-- ==== Proof.KernelBlock.lean ====
/-
  What one grid point leaves in its output block, as the relation score.

  The body stores one 64 × 256 block: entry `(p, s)` is the logistic function of the lane sum of the
  third layer times the read-out row, plus the last bias. Given what the eight input blocks hold — the
  query projection of rows `q0 + p`, the support projection plus the first bias, the second layer's
  weights and bias, and the zero-padded third-layer weights, bias and read-out row — this is the score
  `G` of the pair `(q0 + p, s)`: the factored first layer is the dense layer of the concatenated
  features, and the padded lanes contribute nothing.
-/
import proofs.«172009_j31885837205813_2_alg».proof.Proof.Gen.KernelIdeal.Frame
import proofs.«172009_j31885837205813_2_alg».proof.Proof.KernelPay

noncomputable section

namespace Cert.KernelIdeal.Block

open Idealize.ShloMosaic Idealize.ShloMosaic.ValueIdx Cert.KernelIdeal Cert.KernelIdeal.Gen Cert.KernelIdeal.Pay Cert.Relation

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload, the loads being the whole input blocks. -/
theorem out_eq (X0 : Vec Ideal S64x256 .f32) (X1 : Vec Ideal S256x256 .bf16) (X2 : Vec Ideal S256x128 .bf16) (X3 : Vec Ideal S128 .f32)
    (X4 : Vec Ideal S128x128 .bf16) (X5 : Vec Ideal S128 .f32) (X6 : Vec Ideal S1x128 .f32) (X7 : Vec Ideal S1 .f32) :
    out0_8 X0 X1 X2 X3 X4 X5 X6 X7 = k0_pay1 (k0_pay2 X7) (k0_pay3 X0 X1 X2 X3 X4 X5 X6) := by
  unfold out0_8
  rw [View.canon_unit_zero hz2]
  simp only [View.ld_unit_zero (S := S64x256) hz2, View.ld_unit_zero (S := S256x256) hz2, View.ld_unit_zero (S := S256x128) hz2,
    View.ld_unit_zero (S := S128) hz1, View.ld_unit_zero (S := S128x128) hz2, View.ld_unit_zero (S := S1x128) hz2,
    View.ld_unit_zero (S := S1) hz1]

/-- The last bias, reshaped to `[1, 1]`. -/
theorem pay2_at (X7 : Vec Ideal S1 .f32) : k0_pay2 X7 (ix2 (0 : Fin 1) (0 : Fin 1)) = X7 (ix1 (0 : Fin 1)) := by
  simp only [k0_pay2]
  exact shapeCast_a_1a_apply X7 _ 0 0

/-- The store's payload at `(p, s)`: the logistic function of the lane sum plus the bias. -/
theorem pay1_at (v38 : FVec Ideal S1x1 .f32) (v40 : FVec Ideal S64x256x128 .f32) (p : Fin 64) (s : Fin 256) :
    k0_pay1 v38 v40 (ix2 p s) = Ideal.logistic ((∑ j : Fin 128, v40 (ix3 p s j)) + v38 (ix2 (0 : Fin 1) (0 : Fin 1))) := by
  simp only [k0_pay1]
  have h1 : (multiReduction .add [2] S64x256 v40 0x00000000#32 reduces_S64x256x128_S64x256 (.inl rfl) rfl) (ix2 p s)
      = ∑ j : Fin 128, v40 (ix3 p s j) :=
    (Ideal.multiReduction_add_single v40 0x00000000#32 reduces_S64x256x128_S64x256 (.inl rfl) rfl (ix2 p s)).trans
      (Finset.sum_congr rfl fun j _ => congrArg v40 (ext3 _ _ rfl rfl rfl))
  have h2 : broadcastTo S64x256 v38 broadcasts_S1x1_S64x256 (ix2 p s) = v38 (ix2 (0 : Fin 1) (0 : Fin 1)) :=
    broadcastTo_apply v38 _ (ix2 p s) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else s.val; rw [if_pos rfl])
  show Ideal.logistic ((multiReduction .add [2] S64x256 v40 0x00000000#32 reduces_S64x256x128_S64x256 (.inl rfl) rfl) (ix2 p s)
      + broadcastTo S64x256 v38 broadcasts_S1x1_S64x256 (ix2 p s)) = _
  rw [h1, h2]

/-- The block at `(p, s)` over the stages of the body. -/
theorem block_at (X0 : Vec Ideal S64x256 .f32) (X1 : Vec Ideal S256x256 .bf16) (X2 : Vec Ideal S256x128 .bf16) (X3 : Vec Ideal S128 .f32)
    (X4 : Vec Ideal S128x128 .bf16) (X5 : Vec Ideal S128 .f32) (X6 : Vec Ideal S1x128 .f32) (X7 : Vec Ideal S1 .f32)
    (p : Fin 64) (s : Fin 256) :
    out0_8 X0 X1 X2 X3 X4 X5 X6 X7 (ix2 p s)
      = Ideal.logistic ((∑ j : Fin 128, hid3 X0 X1 X2 X3 X4 X5 (ix2 (⟨p.val * 256 + s.val, by have := p.isLt; have := s.isLt; omega⟩ : Fin 16384) j)
          * X6 (ix2 (0 : Fin 1) j)) + X7 (ix1 (0 : Fin 1))) := by
  rw [out_eq, pay1_at, pay2_at, Finset.sum_congr rfl (fun j _ => pay3_at X0 X1 X2 X3 X4 X5 X6 p s j)]

/-- THE POINT'S BLOCK IS A BLOCK OF `G`. -/
theorem point_eq (Q : Mat 1024 256) (S : Mat 256 256) (W1 : Mat 512 256) (b1 : Row 256) (W2 : Mat 256 128) (b2 : Row 128)
    (W3 : Mat 128 64) (b3 : Row 64) (W4 : Mat 64 1) (b4 : Row 1)
    (X0 : Vec Ideal S64x256 .f32) (X1 : Vec Ideal S256x256 .bf16) (X2 : Vec Ideal S256x128 .bf16) (X3 : Vec Ideal S128 .f32)
    (X4 : Vec Ideal S128x128 .bf16) (X5 : Vec Ideal S128 .f32) (X6 : Vec Ideal S1x128 .f32) (X7 : Vec Ideal S1 .f32)
    (q0 : Nat) (hq0 : q0 + 64 ≤ 1024)
    (h0 : ∀ (p : Fin 64) (c : Fin 256), X0 (ix2 p c)
      = ∑ e : Fin 256, Q (ix2 (⟨q0 + p.val, by have := p.isLt; omega⟩ : Fin 1024) e) * W1 (ix2 (⟨e.val, by have := e.isLt; omega⟩ : Fin 512) c))
    (h1 : ∀ (s c : Fin 256), X1 (ix2 s c)
      = (∑ e : Fin 256, S (ix2 s e) * W1 (ix2 (⟨256 + e.val, by have := e.isLt; omega⟩ : Fin 512) c)) + b1 (ix1 c))
    (h2 : ∀ (c : Fin 256) (k : Fin 128), X2 (ix2 c k) = W2 (ix2 c k))
    (h3 : ∀ k : Fin 128, X3 (ix1 k) = b2 (ix1 k))
    (h4 : ∀ k j : Fin 128, X4 (ix2 k j) = if h : j.val < 64 then W3 (ix2 k ⟨j.val, h⟩) else 0)
    (h5 : ∀ j : Fin 128, X5 (ix1 j) = if h : j.val < 64 then b3 (ix1 ⟨j.val, h⟩) else 0)
    (h6 : ∀ j : Fin 128, X6 (ix2 (0 : Fin 1) j) = if h : j.val < 64 then W4 (ix2 ⟨j.val, h⟩ (0 : Fin 1)) else 0)
    (h7 : X7 (ix1 (0 : Fin 1)) = b4 (ix1 (0 : Fin 1)))
    (p : Fin 64) (s : Fin 256) :
    out0_8 X0 X1 X2 X3 X4 X5 X6 X7 (ix2 p s)
      = G Q S W1 b1 W2 b2 W3 b3 W4 b4 (ix2 (⟨q0 + p.val, by have := p.isLt; omega⟩ : Fin 1024) s) := by
  have hp := p.isLt; have hs := s.isLt
  rw [block_at]
  show _ = score W4 b4 (dense W3 b3 (dense W2 b2 (dense W1 b1 (pairFeat Q S (⟨q0 + p.val, by omega⟩ : Fin 1024) s))))
  have e1 : ∀ c : Fin 256, hid1 X0 X1 (ix2 (⟨p.val * 256 + s.val, by omega⟩ : Fin 16384) c)
      = dense W1 b1 (pairFeat Q S (⟨q0 + p.val, by omega⟩ : Fin 1024) s) c := fun c => by
    rw [hid1_at,
      show (⟨(⟨p.val * 256 + s.val, by omega⟩ : Fin 16384).val / 256, by show (p.val * 256 + s.val) / 256 < 64; omega⟩ : Fin 64) = p from
        Fin.ext (by show (p.val * 256 + s.val) / 256 = p.val; omega),
      show (⟨(⟨p.val * 256 + s.val, by omega⟩ : Fin 16384).val % 256, by show (p.val * 256 + s.val) % 256 < 256; omega⟩ : Fin 256) = s from
        Fin.ext (by show (p.val * 256 + s.val) % 256 = s.val; omega),
      h0, h1]
    exact dense_split Q S W1 b1 _ s c
  have e2 : ∀ k : Fin 128, hid2 X0 X1 X2 X3 (ix2 (⟨p.val * 256 + s.val, by omega⟩ : Fin 16384) k)
      = dense W2 b2 (dense W1 b1 (pairFeat Q S (⟨q0 + p.val, by omega⟩ : Fin 1024) s)) k := fun k => by
    rw [hid2_at]
    simp only [e1, h2, h3]
    rfl
  have e3 : (∑ j : Fin 128, hid3 X0 X1 X2 X3 X4 X5 (ix2 (⟨p.val * 256 + s.val, by omega⟩ : Fin 16384) j) * X6 (ix2 (0 : Fin 1) j))
      = ∑ j : Fin 64, dense W3 b3 (dense W2 b2 (dense W1 b1 (pairFeat Q S (⟨q0 + p.val, by omega⟩ : Fin 1024) s))) j * W4 (ix2 j (0 : Fin 1)) := by
    simp only [hid3_at, e2]
    exact padded_readout W3 b3 W4 X4 X5 X6 _ h4 h5 h6
  rw [e3, h7]
  rfl

end Cert.KernelIdeal.Block

end
-- ==== Proof.ScatterPads.lean ====
import proofs.«172009_j31885837205813_2_alg».proof.KernelIdeal
import Idealize.ShloMosaic.Lib.ValueIdx
import Idealize.ShloMosaic.PureOps.Ideal

/-!
# Reading a "set" scatter at an index

`Host.scatter d (fun _ b => b) x idx upd` is a left fold, over the update indices in row-major
order, of the step "replace the element at the update's result index by the update's element".
When every update index `j` lands inside the operand, at `g j`, and `g` is injective, each
operand element meets at most one update: the result at `g j` is `upd j`, and outside the
range of `g` it is the operand. The three scatters of the program (all with start index zero)
write a block of 64 columns / entries into a zero operand of 128: they are read here at
explicit coordinates.
-/

noncomputable section

namespace Cert.KernelIdeal.Pads

open Idealize.ShloMosaic Idealize.ShloMosaic.ValueIdx Cert.KernelIdeal

variable [Cert.KernelIdeal.Facts₀]

/-! ## The general reading -/

section General

variable {α : Type} {w : Nat} {s si u : Shape}

/-- One step of the fold when the update index behind `n` lands at `g`: the element at that
    place becomes the update's, every other one stays. -/
def setStep (upd : u.Idx → α) (g : u.Idx → s.Idx) (r : s.Idx → α) (n : Fin u.numel) : s.Idx → α :=
  fun i' => if i' = g (u.rowMajor.symm n) then upd (u.rowMajor.symm n) else r i'

/-- With every result index inside the operand, the scatter is the fold of `setStep`. -/
theorem scatter_eq_foldl (d : ScatterDims s si u) (x : s.Idx → α) (idx : IVec si w) (upd : u.Idx → α)
    (g : u.Idx → s.Idx) (hres : ∀ j, d.resultIdx? j idx = some (g j)) :
    Host.scatter d (fun _ b => b) x idx upd = (List.finRange u.numel).foldl (setStep upd g) x := by
  unfold Host.scatter
  congr 1
  funext r n
  simp only [hres]
  rfl

/-- A fold over update indices none of which lands at `i` leaves the element at `i` alone. -/
theorem foldl_setStep_miss (upd : u.Idx → α) (g : u.Idx → s.Idx) (i : s.Idx) :
    ∀ (L : List (Fin u.numel)) (r : s.Idx → α), (∀ n ∈ L, g (u.rowMajor.symm n) ≠ i) →
      L.foldl (setStep upd g) r i = r i := by
  intro L
  induction L with
  | nil => intro r _; rfl
  | cons n L ih =>
    intro r h
    rw [List.foldl_cons, ih _ (fun m hm => h m (List.mem_cons_of_mem _ hm))]
    unfold setStep
    exact if_neg (fun e => h n (List.mem_cons_self ..) e.symm)

/-- A fold over pairwise distinct update indices, `g` injective: the element at the place where
    the index behind `n0` lands is that update's element. -/
theorem foldl_setStep_hit (upd : u.Idx → α) (g : u.Idx → s.Idx) (hinj : Function.Injective g)
    (n0 : Fin u.numel) :
    ∀ (L : List (Fin u.numel)) (r : s.Idx → α), L.Nodup → n0 ∈ L →
      L.foldl (setStep upd g) r (g (u.rowMajor.symm n0)) = upd (u.rowMajor.symm n0) := by
  intro L
  induction L with
  | nil => intro r _ h; exact absurd h (List.not_mem_nil)
  | cons n L ih =>
    intro r hnd hmem
    rw [List.foldl_cons]
    rcases List.mem_cons.1 hmem with rfl | hin
    · have hnot : n0 ∉ L := (List.nodup_cons.1 hnd).1
      rw [foldl_setStep_miss upd g _ L _ (fun m hm e => hnot (by
        have := u.rowMajor.symm.injective (hinj e)
        exact this ▸ hm))]
      unfold setStep
      exact if_pos rfl
    · exact ih _ (List.nodup_cons.1 hnd).2 hin

/-- The scatter that sets, read where update index `j` lands: the update's element. -/
theorem scatter_set_hit (d : ScatterDims s si u) (x : s.Idx → α) (idx : IVec si w) (upd : u.Idx → α)
    (g : u.Idx → s.Idx) (hres : ∀ j, d.resultIdx? j idx = some (g j)) (hinj : Function.Injective g)
    (j : u.Idx) :
    Host.scatter d (fun _ b => b) x idx upd (g j) = upd j := by
  rw [scatter_eq_foldl d x idx upd g hres]
  have h := foldl_setStep_hit upd g hinj (u.rowMajor j) (List.finRange u.numel) x
    (List.nodup_finRange _) (List.mem_finRange _)
  rw [Equiv.symm_apply_apply] at h
  exact h

/-- The scatter that sets, read where no update index lands: the operand's element. -/
theorem scatter_set_miss (d : ScatterDims s si u) (x : s.Idx → α) (idx : IVec si w) (upd : u.Idx → α)
    (g : u.Idx → s.Idx) (hres : ∀ j, d.resultIdx? j idx = some (g j)) (i : s.Idx)
    (hmiss : ∀ j, g j ≠ i) :
    Host.scatter d (fun _ b => b) x idx upd i = x i := by
  rw [scatter_eq_foldl d x idx upd g hres]
  exact foldl_setStep_miss upd g i _ x (fun n _ => hmiss _)

end General

/-! ## The result index from its coordinates -/

section ResultIdx

variable {w : Nat} {s si u : Shape}

/-- An update index whose start plus window coordinate is, on every axis, the coordinate of the
    operand index `i` lands at `i`. -/
theorem resultIdx?_eq_some (d : ScatterDims s si u) (j : u.Idx) (idx : IVec si w) (i : s.Idx)
    (h : ∀ a, d.start j idx a + (d.window j a : Int) = ((i a).val : Int)) :
    d.resultIdx? j idx = some i := by
  unfold ScatterDims.resultIdx?
  rw [dif_pos (fun a => by
    rw [h a]; exact ⟨Int.natCast_nonneg _, by exact_mod_cast (i a).isLt⟩)]
  congr 1
  funext a
  apply Fin.ext
  show (d.start j idx a + (d.window j a : Int)).toNat = (i a).val
  rw [h a]; exact Int.toNat_natCast _

end ResultIdx

/-! ## The vector pad: 64 entries into 128 -/

section Vec

/-- Where update index `j` of the vector pad lands: the same coordinate. -/
def gVec (j : S64.Idx) : S128.Idx :=
  ix1 ⟨(j 0).val, by have h : (j 0).val < 64 := (j 0).isLt; omega⟩

theorem gVec_injective : Function.Injective gVec := by
  intro j j' e
  have h0 : (j 0).val = (j' 0).val := congrArg (fun i : S128.Idx => (i 0).val) e
  funext a
  match a with
  | ⟨0, _⟩ => exact Fin.ext h0

theorem vec_start (idx : IVec S1 32) (hidx : ∀ k, idx k = 0#32) (j : S64.Idx) :
    scatter_S128_S1_S64_0_n_0_0.start j idx 0 = 0 := by
  unfold ScatterDims.start
  rw [dif_pos (show (0 : Fin S128.rank) ∈ scatter_S128_S1_S64_0_n_0_0.scatterDimsToOperandDims from
    (by decide : (0 : Fin S128.rank) ∈ ([0] : List (Fin S128.rank)))), hidx]
  rfl

theorem vec_window (j : S64.Idx) : scatter_S128_S1_S64_0_n_0_0.window j 0 = (j 0).val := by
  unfold ScatterDims.window
  rw [dif_pos (show (0 : Fin S128.rank) ∈ scatter_S128_S1_S64_0_n_0_0.sKept from
    (by decide : (0 : Fin S128.rank) ∈ S128.kept []))]
  rfl

theorem vec_res (idx : IVec S1 32) (hidx : ∀ k, idx k = 0#32) (j : S64.Idx) :
    scatter_S128_S1_S64_0_n_0_0.resultIdx? j idx = some (gVec j) := by
  apply resultIdx?_eq_some
  intro a
  match a with
  | ⟨0, _⟩ =>
    show scatter_S128_S1_S64_0_n_0_0.start j idx 0 + (scatter_S128_S1_S64_0_n_0_0.window j 0 : Int) = ((j 0).val : Int)
    rw [vec_start idx hidx, vec_window]; simp

/-- The vector pad read at `j`: the update's entry below 64, the operand's from there on. -/
theorem pad_vec_apply {α : Type} (idx : IVec S1 32) (hidx : ∀ k, idx k = 0#32)
    (x : S128.Idx → α) (upd : S64.Idx → α) (j : Fin 128) :
    Host.scatter scatter_S128_S1_S64_0_n_0_0 (fun _ b => b) x idx upd (ix1 j)
      = if h : j.val < 64 then upd (ix1 ⟨j.val, h⟩) else x (ix1 j) := by
  split
  · next h =>
    exact scatter_set_hit scatter_S128_S1_S64_0_n_0_0 x idx upd gVec (vec_res idx hidx)
      gVec_injective (ix1 ⟨j.val, h⟩)
  · next h =>
    refine scatter_set_miss scatter_S128_S1_S64_0_n_0_0 x idx upd gVec (vec_res idx hidx) (ix1 j) ?_
    intro j' e
    have h0 : (j' 0).val = j.val := congrArg (fun i : S128.Idx => (i 0).val) e
    have h1 : (j' 0).val < 64 := (j' 0).isLt
    omega

end Vec

/-! ## The column pad: 128 × 64 into 128 × 128 -/

section Cols

/-- Where update index `j` of the column pad lands: the same two coordinates. -/
def gCols (j : S128x64.Idx) : S128x128.Idx :=
  ix2 ⟨(j 0).val, by have h : (j 0).val < 128 := (j 0).isLt; omega⟩
    ⟨(j 1).val, by have h : (j 1).val < 64 := (j 1).isLt; omega⟩

theorem gCols_injective : Function.Injective gCols := by
  intro j j' e
  have h0 : (j 0).val = (j' 0).val := congrArg (fun i : S128x128.Idx => (i 0).val) e
  have h1 : (j 1).val = (j' 1).val := congrArg (fun i : S128x128.Idx => (i 1).val) e
  funext a
  match a with
  | ⟨0, _⟩ => exact Fin.ext h0
  | ⟨1, _⟩ => exact Fin.ext h1

theorem cols_start0 (idx : IVec S1 32) (j : S128x64.Idx) :
    scatter_S128x128_S1_S128x64_01_n_1_0.start j idx 0 = 0 := by
  unfold ScatterDims.start
  rw [dif_neg (show ¬ (0 : Fin S128x128.rank) ∈ scatter_S128x128_S1_S128x64_01_n_1_0.scatterDimsToOperandDims from
    (by decide : ¬ (0 : Fin S128x128.rank) ∈ ([1] : List (Fin S128x128.rank))))]

theorem cols_start1 (idx : IVec S1 32) (hidx : ∀ k, idx k = 0#32) (j : S128x64.Idx) :
    scatter_S128x128_S1_S128x64_01_n_1_0.start j idx 1 = 0 := by
  unfold ScatterDims.start
  rw [dif_pos (show (1 : Fin S128x128.rank) ∈ scatter_S128x128_S1_S128x64_01_n_1_0.scatterDimsToOperandDims from
    (by decide : (1 : Fin S128x128.rank) ∈ ([1] : List (Fin S128x128.rank)))), hidx]
  rfl

theorem cols_window0 (j : S128x64.Idx) :
    scatter_S128x128_S1_S128x64_01_n_1_0.window j 0 = (j 0).val := by
  unfold ScatterDims.window
  rw [dif_pos (show (0 : Fin S128x128.rank) ∈ scatter_S128x128_S1_S128x64_01_n_1_0.sKept from
    (by decide : (0 : Fin S128x128.rank) ∈ S128x128.kept []))]
  rfl

theorem cols_window1 (j : S128x64.Idx) :
    scatter_S128x128_S1_S128x64_01_n_1_0.window j 1 = (j 1).val := by
  unfold ScatterDims.window
  rw [dif_pos (show (1 : Fin S128x128.rank) ∈ scatter_S128x128_S1_S128x64_01_n_1_0.sKept from
    (by decide : (1 : Fin S128x128.rank) ∈ S128x128.kept []))]
  rfl

theorem cols_res (idx : IVec S1 32) (hidx : ∀ k, idx k = 0#32) (j : S128x64.Idx) :
    scatter_S128x128_S1_S128x64_01_n_1_0.resultIdx? j idx = some (gCols j) := by
  apply resultIdx?_eq_some
  intro a
  match a with
  | ⟨0, _⟩ =>
    show scatter_S128x128_S1_S128x64_01_n_1_0.start j idx 0
      + (scatter_S128x128_S1_S128x64_01_n_1_0.window j 0 : Int) = ((j 0).val : Int)
    rw [cols_start0, cols_window0]; simp
  | ⟨1, _⟩ =>
    show scatter_S128x128_S1_S128x64_01_n_1_0.start j idx 1
      + (scatter_S128x128_S1_S128x64_01_n_1_0.window j 1 : Int) = ((j 1).val : Int)
    rw [cols_start1 idx hidx, cols_window1]; simp

/-- The column pad read at row `k`, column `j`: the update's element below column 64, the
    operand's from there on. -/
theorem pad_cols_apply {α : Type} (idx : IVec S1 32) (hidx : ∀ k, idx k = 0#32)
    (x : S128x128.Idx → α) (upd : S128x64.Idx → α) (k j : Fin 128) :
    Host.scatter scatter_S128x128_S1_S128x64_01_n_1_0 (fun _ b => b) x idx upd (ix2 k j)
      = if h : j.val < 64 then upd (ix2 k ⟨j.val, h⟩) else x (ix2 k j) := by
  split
  · next h =>
    exact scatter_set_hit scatter_S128x128_S1_S128x64_01_n_1_0 x idx upd gCols (cols_res idx hidx)
      gCols_injective (ix2 k ⟨j.val, h⟩)
  · next h =>
    refine scatter_set_miss scatter_S128x128_S1_S128x64_01_n_1_0 x idx upd gCols (cols_res idx hidx)
      (ix2 k j) ?_
    intro j' e
    have h0 : (j' 1).val = j.val := congrArg (fun i : S128x128.Idx => (i 1).val) e
    have h1 : (j' 1).val < 64 := (j' 1).isLt
    omega

end Cols

/-! ## The row pad: 64 entries into 1 × 128 -/

section Row

/-- Where update index `j` of the row pad lands: row zero, the same column. -/
def gRow (j : S64.Idx) : S1x128.Idx :=
  ix2 (0 : Fin 1) ⟨(j 0).val, by have h : (j 0).val < 64 := (j 0).isLt; omega⟩

theorem gRow_injective : Function.Injective gRow := by
  intro j j' e
  have h0 : (j 0).val = (j' 0).val := congrArg (fun i : S1x128.Idx => (i 1).val) e
  funext a
  match a with
  | ⟨0, _⟩ => exact Fin.ext h0

theorem row_start0 (idx : IVec S2 32) (hidx : ∀ k, idx k = 0#32) (j : S64.Idx) :
    scatter_S1x128_S2_S64_0_0_01_0.start j idx 0 = 0 := by
  unfold ScatterDims.start
  rw [dif_pos (show (0 : Fin S1x128.rank) ∈ scatter_S1x128_S2_S64_0_0_01_0.scatterDimsToOperandDims from
    (by decide : (0 : Fin S1x128.rank) ∈ ([0, 1] : List (Fin S1x128.rank)))), hidx]
  rfl

theorem row_start1 (idx : IVec S2 32) (hidx : ∀ k, idx k = 0#32) (j : S64.Idx) :
    scatter_S1x128_S2_S64_0_0_01_0.start j idx 1 = 0 := by
  unfold ScatterDims.start
  rw [dif_pos (show (1 : Fin S1x128.rank) ∈ scatter_S1x128_S2_S64_0_0_01_0.scatterDimsToOperandDims from
    (by decide : (1 : Fin S1x128.rank) ∈ ([0, 1] : List (Fin S1x128.rank)))), hidx]
  rfl

theorem row_window0 (j : S64.Idx) : scatter_S1x128_S2_S64_0_0_01_0.window j 0 = 0 := by
  unfold ScatterDims.window
  rw [dif_neg (show ¬ (0 : Fin S1x128.rank) ∈ scatter_S1x128_S2_S64_0_0_01_0.sKept from
    (by decide : ¬ (0 : Fin S1x128.rank) ∈ S1x128.kept [0]))]

theorem row_window1 (j : S64.Idx) : scatter_S1x128_S2_S64_0_0_01_0.window j 1 = (j 0).val := by
  unfold ScatterDims.window
  rw [dif_pos (show (1 : Fin S1x128.rank) ∈ scatter_S1x128_S2_S64_0_0_01_0.sKept from
    (by decide : (1 : Fin S1x128.rank) ∈ S1x128.kept [0]))]
  rfl

theorem row_res (idx : IVec S2 32) (hidx : ∀ k, idx k = 0#32) (j : S64.Idx) :
    scatter_S1x128_S2_S64_0_0_01_0.resultIdx? j idx = some (gRow j) := by
  apply resultIdx?_eq_some
  intro a
  match a with
  | ⟨0, _⟩ =>
    show scatter_S1x128_S2_S64_0_0_01_0.start j idx 0
      + (scatter_S1x128_S2_S64_0_0_01_0.window j 0 : Int) = ((0 : Nat) : Int)
    rw [row_start0 idx hidx, row_window0]; simp
  | ⟨1, _⟩ =>
    show scatter_S1x128_S2_S64_0_0_01_0.start j idx 1
      + (scatter_S1x128_S2_S64_0_0_01_0.window j 1 : Int) = ((j 0).val : Int)
    rw [row_start1 idx hidx, row_window1]; simp

/-- The row pad read at column `j`: the update's entry below 64, the operand's from there on. -/
theorem pad_row_apply {α : Type} (idx : IVec S2 32) (hidx : ∀ k, idx k = 0#32)
    (x : S1x128.Idx → α) (upd : S64.Idx → α) (j : Fin 128) :
    Host.scatter scatter_S1x128_S2_S64_0_0_01_0 (fun _ b => b) x idx upd (ix2 (0 : Fin 1) j)
      = if h : j.val < 64 then upd (ix1 ⟨j.val, h⟩) else x (ix2 (0 : Fin 1) j) := by
  split
  · next h =>
    exact scatter_set_hit scatter_S1x128_S2_S64_0_0_01_0 x idx upd gRow (row_res idx hidx)
      gRow_injective (ix1 ⟨j.val, h⟩)
  · next h =>
    refine scatter_set_miss scatter_S1x128_S2_S64_0_0_01_0 x idx upd gRow (row_res idx hidx)
      (ix2 (0 : Fin 1) j) ?_
    intro j' e
    have h0 : (j' 0).val = j.val := congrArg (fun i : S1x128.Idx => (i 1).val) e
    have h1 : (j' 0).val < 64 := (j' 0).isLt
    omega

end Row

/-! ## The program's start indices are zero -/

section Zero

open Facts₀

/-- A concatenation of pieces that all hold the one value `c` everywhere holds `c` everywhere:
    whichever piece an index falls in, it reads `c` there. -/
theorem concatenate_const {α : Type} {t : Shape} (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

/-- The scalar zero broadcast to one entry is zero. -/
theorem idx1_zero (k : S1.Idx) :
    (broadcastInDim S1 ![] bcast_S_S1 (constantI S_ 32 0#32)) k = 0#32 := rfl

/-- Two such one-entry vectors side by side are zero at both entries. -/
theorem idx2_zero (k : S2.Idx) :
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) k = 0#32 := by
  apply concatenate_const
  intro p hp i
  simp only [List.mem_cons, List.not_mem_nil, or_false, or_self] at hp
  subst hp
  rfl

end Zero

end Cert.KernelIdeal.Pads

end
-- ==== Proof.KernelHost.lean ====
import proofs.«172009_j31885837205813_2_alg».proof.Proof.Gen.KernelIdeal.Frame
import proofs.«172009_j31885837205813_2_alg».proof.Proof.ScatterPads
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

/-!
# What the host operations hand the kernel

Before the kernel is launched, the program computes six arrays from its arguments: the query
projection (a matrix product with the upper half of the first weight matrix), the support
projection (a product with the lower half, plus a bias row), a copy of the second weight matrix,
and three zero-padded arrays (64 columns or entries written into 128). Over the ideal numbers
(extended reals) each is read here index by index in terms of the arguments.
-/

set_option maxRecDepth 16384

noncomputable section

namespace Cert.KernelIdeal.HostGlue

open Idealize.ShloMosaic Idealize.ShloMosaic.ValueIdx Idealize.ShloMosaic.TcCoe Idealize.SL.Sem
open Cert.KernelIdeal Cert.KernelIdeal.Gen Cert.KernelIdeal.Facts₀

variable [Cert.KernelIdeal.Facts] (m : (ℓ : Loc nD τ sig) → Buf (Elt Ideal) ℓ) (c : Dev nD)

/-! ## The argument arrays -/

/-- The queries: 1024 rows of 256. -/
abbrev A0 : FVec Ideal S1024x256 .f32 := m ((c : Thread nD τ).loc main_arg0)
/-- The support set: 256 rows of 256. -/
abbrev A1 : FVec Ideal S256x256 .f32 := m ((c : Thread nD τ).loc main_arg1)
/-- The first weight matrix, 512 × 256: its upper half multiplies the queries, its lower half the support set. -/
abbrev A3 : FVec Ideal S512x256 .f32 := m ((c : Thread nD τ).loc main_arg3)
/-- The bias row of the support projection. -/
abbrev A4 : FVec Ideal S256 .f32 := m ((c : Thread nD τ).loc main_arg4)

/-! ## The two projections -/

section Dots

/-! The operand indices of the two products, coordinate by coordinate: the left operand is read at
    (row of the result, contraction position), the right at (contraction position, column). -/

theorem dq_lhs0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬ (0 : Fin S1024x256.rank) ∈ dot_S1024x256_S256x256_S1024x256_1_0_0_1_n_n.lhsBatch from
      (by decide : ¬ (0 : Fin S1024x256.rank) ∈ ([] : List (Fin S1024x256.rank)))),
    dif_pos (show (0 : Fin S1024x256.rank) ∈ dot_S1024x256_S256x256_S1024x256_1_0_0_1_n_n.lhsNonContracting from
      (by decide : (0 : Fin S1024x256.rank) ∈ ([0] : List (Fin S1024x256.rank))))]
  rfl
theorem dq_lhs1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem dq_rhs0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem dq_rhs1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬ (1 : Fin S256x256.rank) ∈ dot_S1024x256_S256x256_S1024x256_1_0_0_1_n_n.rhsBatch from
      (by decide : ¬ (1 : Fin S256x256.rank) ∈ ([] : List (Fin S256x256.rank)))),
    dif_pos (show (1 : Fin S256x256.rank) ∈ dot_S1024x256_S256x256_S1024x256_1_0_0_1_n_n.rhsNonContracting from
      (by decide : (1 : Fin S256x256.rank) ∈ ([1] : List (Fin S256x256.rank))))]
  rfl

theorem ds_lhs0 (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬ (0 : Fin S256x256.rank) ∈ dot_S256x256_S256x256_S256x256_1_0_0_1_n_n.lhsBatch from
      (by decide : ¬ (0 : Fin S256x256.rank) ∈ ([] : List (Fin S256x256.rank)))),
    dif_pos (show (0 : Fin S256x256.rank) ∈ dot_S256x256_S256x256_S256x256_1_0_0_1_n_n.lhsNonContracting from
      (by decide : (0 : Fin S256x256.rank) ∈ ([0] : List (Fin S256x256.rank))))]
  rfl
theorem ds_lhs1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem ds_rhs0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem ds_rhs1 (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬ (1 : Fin S256x256.rank) ∈ dot_S256x256_S256x256_S256x256_1_0_0_1_n_n.rhsBatch from
      (by decide : ¬ (1 : Fin S256x256.rank) ∈ ([] : List (Fin S256x256.rank)))),
    dif_pos (show (1 : Fin S256x256.rank) ∈ dot_S256x256_S256x256_S256x256_1_0_0_1_n_n.rhsNonContracting from
      (by decide : (1 : Fin S256x256.rank) ∈ ([1] : List (Fin S256x256.rank))))]
  rfl

/-- A product of an `n × 256` matrix with a `256 × 256` one, over the ideal numbers, at an
    index: the sum over the 256 contraction positions. Here for the query projection's record. -/
theorem dq_apply (l : FVec Ideal S1024x256 .f32) (r : FVec Ideal S256x256 .f32)
    (q : Fin 1024) (c' : Fin 256) :
    Host.dotGeneral (F := Ideal) dot_S1024x256_S256x256_S1024x256_1_0_0_1_n_n none l r (ix2 q c')
      = ∑ e : Fin 256, l (ix2 q e) * r (ix2 e c') := by
  simp only [Host.dotGeneral]
  rw [Ideal.dotGeneral_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 q c') ((contrEquiv1 dot_S1024x256_S256x256_S1024x256_1_0_0_1_n_n 256 rfl rfl).symm k) = ix2 q k :=
    funext fun a => Fin.ext (by
      match a with
      | ⟨0, _⟩ => exact dq_lhs0 _ _
      | ⟨1, _⟩ => exact (dq_lhs1 _ _).trans hk)
  have er : dot_S1024x256_S256x256_S1024x256_1_0_0_1_n_n.rhsIdx (ix2 q c') ((contrEquiv1 dot_S1024x256_S256x256_S1024x256_1_0_0_1_n_n 256 rfl rfl).symm k) = ix2 k c' :=
    funext fun a => Fin.ext (by
      match a with
      | ⟨0, _⟩ => exact (dq_rhs0 _ _).trans hk
      | ⟨1, _⟩ => exact dq_rhs1 _ _)
  rw [el, er]

/-- The same for the support projection's record. -/
theorem ds_apply (l : FVec Ideal S256x256 .f32) (r : FVec Ideal S256x256 .f32)
    (s c' : Fin 256) :
    Host.dotGeneral (F := Ideal) dot_S256x256_S256x256_S256x256_1_0_0_1_n_n none l r (ix2 s c')
      = ∑ e : Fin 256, l (ix2 s e) * r (ix2 e c') := by
  simp only [Host.dotGeneral]
  rw [Ideal.dotGeneral_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 s c') ((contrEquiv1 dot_S256x256_S256x256_S256x256_1_0_0_1_n_n 256 rfl rfl).symm k) = ix2 s k :=
    funext fun a => Fin.ext (by
      match a with
      | ⟨0, _⟩ => exact ds_lhs0 _ _
      | ⟨1, _⟩ => exact (ds_lhs1 _ _).trans hk)
  have er : dot_S256x256_S256x256_S256x256_1_0_0_1_n_n.rhsIdx (ix2 s c') ((contrEquiv1 dot_S256x256_S256x256_S256x256_1_0_0_1_n_n 256 rfl rfl).symm k) = ix2 k c' :=
    funext fun a => Fin.ext (by
      match a with
      | ⟨0, _⟩ => exact (ds_rhs0 _ _).trans hk
      | ⟨1, _⟩ => exact ds_rhs1 _ _)
  rw [el, er]

end Dots

/-- The query projection: each query row times the upper half of the first weight matrix. -/
theorem v7_at (q : Fin 1024) (c' : Fin 256) :
    (V m c main_v7 : S1024x256.Idx → EReal) (ix2 q c')
      = (∑ e : Fin 256, A0 m c (ix2 q e) * A3 m c (ix2 (⟨e.val, by have := e.isLt; omega⟩ : Fin 512) c') : EReal) := by
  have e0 : (V m c main_v7 : S1024x256.Idx → EReal) =
      Host.dotGeneral (F := Ideal) dot_S1024x256_S256x256_S1024x256_1_0_0_1_n_n none (A0 m c)
        (extractStridedSlice S256x256 ![0, 0] (A3 m c) Facts₀.slices_S512x256_S256x256_0_0) := by
    dsimp only [Gen.V, Gen.hostOps0]
    after_results <;> rfl
  have key : Host.dotGeneral (F := Ideal) dot_S1024x256_S256x256_S1024x256_1_0_0_1_n_n none (A0 m c)
        (extractStridedSlice S256x256 ![0, 0] (A3 m c) Facts₀.slices_S512x256_S256x256_0_0) (ix2 q c')
      = ∑ e : Fin 256, A0 m c (ix2 q e) * A3 m c (ix2 (⟨e.val, by have := e.isLt; omega⟩ : Fin 512) c') := by
    rw [dq_apply]
    refine Finset.sum_congr rfl fun e _ => ?_
    congr 1
    exact extractStridedSlice_apply ![0, 0] _ Facts₀.slices_S512x256_S256x256_0_0 (ix2 e c')
      (ix2 (⟨e.val, by have := e.isLt; omega⟩ : Fin 512) c') (fun a => match a with
        | ⟨0, _⟩ => by show e.val = 0 + e.val; omega
        | ⟨1, _⟩ => by show c'.val = 0 + c'.val; omega)
  rw [e0]
  exact key

/-- The support projection: each support row times the lower half of the first weight matrix,
    plus the bias of the column. -/
theorem v6_at (s c' : Fin 256) :
    (V m c main_v6 : S256x256.Idx → EReal) (ix2 s c')
      = ((∑ e : Fin 256, A1 m c (ix2 s e) * A3 m c (ix2 (⟨256 + e.val, by have := e.isLt; omega⟩ : Fin 512) c'))
        + A4 m c (ix1 c') : EReal) := by
  have e0 : (V m c main_v6 : S256x256.Idx → EReal) =
      truncf (F := Ideal) .bf16 (addf
        (Host.dotGeneral (F := Ideal) dot_S256x256_S256x256_S256x256_1_0_0_1_n_n none (A1 m c)
          (extractStridedSlice S256x256 ![256, 0] (A3 m c) Facts₀.slices_S512x256_S256x256_256_0))
        (broadcastInDim S256x256 ![0, 1] Facts₀.bcast_S1x256_S256x256_0_1
          (broadcastInDim S1x256 ![1] Facts₀.bcast_S256_S1x256_1 (A4 m c))))
        Facts₀.bitsLt_bf16_f32 := by
    dsimp only [Gen.V, Gen.hostOps0]
    after_results <;> rfl
  have key : (truncf (F := Ideal) .bf16 (addf
        (Host.dotGeneral (F := Ideal) dot_S256x256_S256x256_S256x256_1_0_0_1_n_n none (A1 m c)
          (extractStridedSlice S256x256 ![256, 0] (A3 m c) Facts₀.slices_S512x256_S256x256_256_0))
        (broadcastInDim S256x256 ![0, 1] Facts₀.bcast_S1x256_S256x256_0_1
          (broadcastInDim S1x256 ![1] Facts₀.bcast_S256_S1x256_1 (A4 m c))))
        Facts₀.bitsLt_bf16_f32 : FVec Ideal S256x256 .bf16) (ix2 s c')
      = (∑ e : Fin 256, A1 m c (ix2 s e) * A3 m c (ix2 (⟨256 + e.val, by have := e.isLt; omega⟩ : Fin 512) c'))
        + A4 m c (ix1 c') := by
    rw [truncf_apply, addf_apply, ds_apply]
    congr 1
    · refine Finset.sum_congr rfl fun e _ => ?_
      congr 1
      exact extractStridedSlice_apply ![256, 0] _ Facts₀.slices_S512x256_S256x256_256_0 (ix2 e c')
        (ix2 (⟨256 + e.val, by have := e.isLt; omega⟩ : Fin 512) c') (fun a => match a with
          | ⟨0, _⟩ => by show 256 + e.val = 256 + e.val; rfl
          | ⟨1, _⟩ => by show c'.val = 0 + c'.val; omega)
    · rw [broadcastInDim_apply _ Facts₀.bcast_S1x256_S256x256_0_1 _ (ix2 s c') (ix2 (0 : Fin 1) c')
        (fun a => match a with
          | ⟨0, _⟩ => by show 0 = if (1 : Nat) = 1 then 0 else s.val; rw [if_pos rfl]
          | ⟨1, _⟩ => by show c'.val = if (256 : Nat) = 1 then 0 else c'.val; rw [if_neg (by decide)])]
      exact broadcastInDim_apply _ Facts₀.bcast_S256_S1x256_1 _ (ix2 (0 : Fin 1) c') (ix1 c')
        (fun a => match a with
          | ⟨0, _⟩ => by show c'.val = if (256 : Nat) = 1 then 0 else c'.val; rw [if_neg (by decide)])
  rw [e0]
  exact key

/-! ## The copied weight matrix -/

/-- The second weight matrix reaches the kernel unchanged: over the ideal numbers the change of
    format is the identity. -/
theorem v8_eq : (V m c main_v8 : S256x128.Idx → EReal) = m ((c : Thread nD τ).loc main_arg5) := by
  dsimp only [Gen.V, Gen.hostOps0]
  after_results <;> rfl

theorem v8_at (c' : Fin 256) (k : Fin 128) :
    (V m c main_v8 : S256x128.Idx → EReal) (ix2 c' k)
      = (m ((c : Thread nD τ).loc main_arg5) : S256x128.Idx → EReal) (ix2 c' k) := by
  rw [v8_eq]

/-! ## The three zero-padded arrays -/

/-- The padded vector: the argument's 64 entries, then zeros. -/
theorem v15_at (j : Fin 128) :
    (V m c main_v15 : S128.Idx → EReal) (ix1 j)
      = (if h : j.val < 64 then (m ((c : Thread nD τ).loc main_arg8) : S64.Idx → EReal) (ix1 ⟨j.val, h⟩) else 0 : EReal) := by
  have e : (V m c main_v15 : S128.Idx → EReal) =
      Host.scatter scatter_S128_S1_S64_0_n_0_0 (fun _ b => b)
        (broadcastInDim S128 ![] Facts₀.bcast_S_S128 (constant (F := Ideal) S_ .f32 0x00000000#32))
        (broadcastInDim S1 ![] Facts₀.bcast_S_S1 (constantI S_ 32 0#32))
        (m ((c : Thread nD τ).loc main_arg8)) := by
    dsimp only [Gen.V, Gen.hostOps0]
    after_results <;> rfl
  rw [e, Pads.pad_vec_apply _ Pads.idx1_zero]
  split
  · rfl
  · exact Ideal.ofBits_zero_f32

/-- The padded matrix: the argument's 64 columns, then zero columns. -/
theorem v12_at (k j : Fin 128) :
    (V m c main_v12 : S128x128.Idx → EReal) (ix2 k j)
      = (if h : j.val < 64 then (m ((c : Thread nD τ).loc main_arg7) : S128x64.Idx → EReal) (ix2 k ⟨j.val, h⟩) else 0 : EReal) := by
  have e : (V m c main_v12 : S128x128.Idx → EReal) =
      truncf (F := Ideal) .bf16 (Host.scatter scatter_S128x128_S1_S128x64_01_n_1_0 (fun _ b => b)
        (broadcastInDim S128x128 ![] Facts₀.bcast_S_S128x128 (constant (F := Ideal) S_ .f32 0x00000000#32))
        (broadcastInDim S1 ![] Facts₀.bcast_S_S1 (constantI S_ 32 0#32))
        (m ((c : Thread nD τ).loc main_arg7))) Facts₀.bitsLt_bf16_f32 := by
    dsimp only [Gen.V, Gen.hostOps0]
    after_results <;> rfl
  rw [e, truncf_apply, Pads.pad_cols_apply _ Pads.idx1_zero]
  split
  · rfl
  · exact Ideal.ofBits_zero_f32

/-- The padded row: the argument's 64 entries (a column of 64 read as a vector), then zeros. -/
theorem v21_at (j : Fin 128) :
    (V m c main_v21 : S1x128.Idx → EReal) (ix2 (0 : Fin 1) j)
      = (if h : j.val < 64 then (m ((c : Thread nD τ).loc main_arg9) : S64x1.Idx → EReal) (ix2 ⟨j.val, h⟩ (0 : Fin 1)) else 0 : EReal) := by
  have e : (V m c main_v21 : S1x128.Idx → EReal) =
      Host.scatter scatter_S1x128_S2_S64_0_0_01_0 (fun _ b => b)
        (broadcastInDim S1x128 ![] Facts₀.bcast_S_S1x128 (constant (F := Ideal) S_ .f32 0x00000000#32))
        (concatenate S2 0 [⟨S1, broadcastInDim S1 ![] Facts₀.bcast_S_S1 (constantI S_ 32 0#32)⟩,
          ⟨S1, broadcastInDim S1 ![] Facts₀.bcast_S_S1 (constantI S_ 32 0#32)⟩] Facts₀.concatenates_S1_S1_S2_d0)
        (shapeCast S64 (m ((c : Thread nD τ).loc main_arg9) : S64x1.Idx → EReal) Facts₀.shapeCasts_S64x1_S64) := by
    dsimp only [Gen.V, Gen.hostOps0]
    after_results <;> rfl
  rw [e, Pads.pad_row_apply _ Pads.idx2_zero]
  split
  · next h =>
    exact shapeCast_apply _ Facts₀.shapeCasts_S64x1_S64 (ix1 ⟨j.val, h⟩) (ix2 ⟨j.val, h⟩ (0 : Fin 1)) (by
      rw [Shape.rowMajor_val_two, Shape.rowMajor_val_one]
      show j.val * 1 + 0 = j.val
      omega)
  · exact Ideal.ofBits_zero_f32

end Cert.KernelIdeal.HostGlue

end
-- ==== Proof.KernelValue.lean ====
/-
  The kernel's result array after the run is the relation score `G` of the argument arrays.

  Grid point `t` (of 16) writes back rows `64 t … 64 t + 63` of the result; its query-projection block is
  rows `64 t …` of the projection, and every other operand is one whole block at every point. So what
  point `t` writes back is block `t` of `G`; the 16 blocks tile the 1024 rows, hence the array is `G`.
-/
import proofs.«172009_j31885837205813_2_alg».proof.Proof.Gen.KernelIdeal.Frame
import proofs.«172009_j31885837205813_2_alg».proof.Proof.KernelBlock
import proofs.«172009_j31885837205813_2_alg».proof.Proof.KernelHost
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Relation Cert.KernelIdeal.Block Cert.KernelIdeal.HostGlue
open Idealize.ShloMosaic.Pipeline (Dat)

variable (m : (ℓ : Loc nD τ sig) → Buf (Elt Ideal) ℓ) (ρ : Dev nD → PrngReg)

/-- Core `c`'s result array as a function of its argument arrays: the relation score. -/
abbrev GA (c : Dev nD) : S1024x256.Idx → EReal :=
  G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The printed index maps, decided over the 16 points: the query projection and the result move with the
    point along the rows, every other operand stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- WHAT POINT `t` WRITES BACK is block `t` of the relation score. -/
theorem flushed_eq (c : Dev nD) (t : Fin cfg0.N) :
    (dats m 0 c).flushed 8 t = ((cfg0.win 8).blk t).view.read (Elt Ideal) (GA m c) := by
  show (cfg0.win 8).cut (grid0.coords t) ((dats m 0 c).after 8 t) = _
  rw [after0_8]
  obtain ⟨e00, e01, e10, e11, e20, e21, e30, e40, e41, e50, e60, e61, e70, e80, e81⟩ := idx_facts t
  have ht : t.val < 16 := by have h := t.isLt; have hN : cfg0.N = 16 := N_0; omega
  refine funext fun (y : S64x256.Idx) => ?_
  obtain ⟨p, s, rfl⟩ : ∃ (p : Fin 64) (s : Fin 256), y = ix2 p s := ⟨y 0, y 1, eq_ix2 y⟩
  have hp := p.isLt; have hs := s.isLt
  show out0_8 (iblk m c 0 t) (iblk m c 1 t) (iblk m c 2 t) (iblk m c 3 t) (iblk m c 4 t) (iblk m c 5 t) (iblk m c 6 t) (iblk m c 7 t) (ix2 p s)
    = GA m c (((cfg0.win 8).blk t).view.emb (ix2 p s))
  have hemb : ((cfg0.win 8).blk t).view.emb (ix2 p s) = ix2 (⟨64 * t.val + p.val, by omega⟩ : Fin 1024) s := by
    funext a; apply Fin.ext
    match a with
    | ⟨0, _⟩ => show win0_8.index t (0 : Fin 2) * 64 + 1 * p.val = 64 * t.val + p.val; omega
    | ⟨1, _⟩ => show win0_8.index t (1 : Fin 2) * 256 + 1 * s.val = s.val; omega
  rw [hemb]
  refine point_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (iblk m c 5 t) (iblk m c 6 t) (iblk m c 7 t)
    (64 * t.val) (by omega) ?_ ?_ ?_ ?_ ?_ ?_ ?_ ?_ p s
  · intro p' c'
    have hp' := p'.isLt
    show V m c main_v7 (((cfg0.win 0).blk t).view.emb (ix2 p' c')) = _
    rw [show ((cfg0.win 0).blk t).view.emb (ix2 p' c') = ix2 (⟨64 * t.val + p'.val, by omega⟩ : Fin 1024) c' from by
      funext a; apply Fin.ext
      match a with
      | ⟨0, _⟩ => show win0_0.index t (0 : Fin 2) * 64 + 1 * p'.val = 64 * t.val + p'.val; omega
      | ⟨1, _⟩ => show win0_0.index t (1 : Fin 2) * 256 + 1 * c'.val = c'.val; omega]
    exact v7_at m c _ c'
  · intro s' c'
    show V m c main_v6 (((cfg0.win 1).blk t).view.emb (ix2 s' c')) = _
    rw [show ((cfg0.win 1).blk t).view.emb (ix2 s' c') = ix2 s' c' from by
      funext a; apply Fin.ext
      match a with
      | ⟨0, _⟩ => show win0_1.index t (0 : Fin 2) * 256 + 1 * s'.val = s'.val; omega
      | ⟨1, _⟩ => show win0_1.index t (1 : Fin 2) * 256 + 1 * c'.val = c'.val; omega]
    exact v6_at m c s' c'
  · intro c' k
    show V m c main_v8 (((cfg0.win 2).blk t).view.emb (ix2 c' k)) = _
    rw [show ((cfg0.win 2).blk t).view.emb (ix2 c' k) = ix2 c' k from by
      funext a; apply Fin.ext
      match a with
      | ⟨0, _⟩ => show win0_2.index t (0 : Fin 2) * 256 + 1 * c'.val = c'.val; omega
      | ⟨1, _⟩ => show win0_2.index t (1 : Fin 2) * 128 + 1 * k.val = k.val; omega]
    exact v8_at m c c' k
  · intro k
    show V m c main_arg6 (((cfg0.win 3).blk t).view.emb (ix1 k)) = _
    rw [show ((cfg0.win 3).blk t).view.emb (ix1 k) = ix1 k from by
      funext a; apply Fin.ext
      match a with
      | ⟨0, _⟩ => show win0_3.index t (0 : Fin 1) * 128 + 1 * k.val = k.val; omega]
    rw [V_main_arg6]
  · intro k j
    show V m c main_v12 (((cfg0.win 4).blk t).view.emb (ix2 k j)) = _
    rw [show ((cfg0.win 4).blk t).view.emb (ix2 k j) = ix2 k j from by
      funext a; apply Fin.ext
      match a with
      | ⟨0, _⟩ => show win0_4.index t (0 : Fin 2) * 128 + 1 * k.val = k.val; omega
      | ⟨1, _⟩ => show win0_4.index t (1 : Fin 2) * 128 + 1 * j.val = j.val; omega]
    exact v12_at m c k j
  · intro j
    show V m c main_v15 (((cfg0.win 5).blk t).view.emb (ix1 j)) = _
    rw [show ((cfg0.win 5).blk t).view.emb (ix1 j) = ix1 j from by
      funext a; apply Fin.ext
      match a with
      | ⟨0, _⟩ => show win0_5.index t (0 : Fin 1) * 128 + 1 * j.val = j.val; omega]
    exact v15_at m c j
  · intro j
    show V m c main_v21 (((cfg0.win 6).blk t).view.emb (ix2 (0 : Fin 1) j)) = _
    rw [show ((cfg0.win 6).blk t).view.emb (ix2 (0 : Fin 1) j) = ix2 (0 : Fin 1) j from by
      funext a; apply Fin.ext
      match a with
      | ⟨0, _⟩ => show win0_6.index t (0 : Fin 2) * 1 + 1 * 0 = 0; omega
      | ⟨1, _⟩ => show win0_6.index t (1 : Fin 2) * 128 + 1 * j.val = j.val; omega]
    exact v21_at m c j
  · show V m c main_arg10 (((cfg0.win 7).blk t).view.emb (ix1 (0 : Fin 1))) = _
    rw [show ((cfg0.win 7).blk t).view.emb (ix1 (0 : Fin 1)) = ix1 (0 : Fin 1) from by
      funext a; apply Fin.ext
      match a with
      | ⟨0, _⟩ => show win0_7.index t (0 : Fin 1) * 1 + 1 * 0 = 0; omega]
    rw [V_main_arg10]

/-- An index of the result array is in point `t`'s block iff each coordinate is in the block's range. -/
theorem mem_blk (t : Fin cfg0.N) (i : S1024x256.Idx) :
    i ∈ ((cfg0.win 8).blk t).view.set ↔ ∀ a : Fin 2, win0_8.index t a * S64x256.size a ≤ (i a).val ∧ (i a).val < win0_8.index t a * S64x256.size a + S64x256.size a := by
  show i ∈ ((View.whole main_v22).slice (win0_8.rect t)).set ↔ _
  rw [View.set_slice_whole, Rect.mem_set_unit]
  exact Iff.rfl

/-- The 16 blocks tile the array: row `r` is in the block of point `r / 64`. -/
theorem cover (i : S1024x256.Idx) : ∃ t : Fin cfg0.N, (cfg0.win 8).flush t = true ∧ i ∈ ((cfg0.win 8).blk t).view.set := by
  have hi0 : (i 0).val < 1024 := (i 0).isLt
  have hi1 : (i 1).val < 256 := (i 1).isLt
  have hN : cfg0.N = 16 := N_0
  obtain ⟨t, htv⟩ : ∃ t : Fin cfg0.N, t.val = (i 0).val / 64 := ⟨⟨(i 0).val / 64, by rw [hN]; omega⟩, rfl⟩
  obtain ⟨-, -, -, -, -, -, -, -, -, -, -, -, -, e80, e81⟩ := idx_facts t
  refine ⟨t, flush0_8 t, ?_⟩
  rw [mem_blk]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 256 ≤ (i 1).val ∧ (i 1).val < win0_8.index t (1 : Fin 2) * 256 + 256; omega

/-- THE ARRAY after the run is the relation score. -/
theorem final (c : Dev nD) : (dats m 0 c).arrAt 8 cfg0.N = GA m c :=
  (dats m 0 c).arrAt_eq_of_cover 8 (GA m c) (fun t _ => flushed_eq m c t) cover

/-- The kernel's run: it terminates without a fault, the result array is the relation score of the arguments,
    and the arguments are unchanged. -/
theorem run : θ_run defs (onTc (τ := τ) (main (F := Ideal))) ⟨m, fun _ => 0, ρ⟩ fun r => ∀ c : Dev nD,
      r.2.mem ((c : Thread nD τ).loc main_v22) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 7).trans (((dats m 0 c).arrAt_in 7 rfl _).trans ((A_eq m c 7).trans (V_main_arg10 m c)))⟩)
    (run_main m ρ)

end Cert.KernelIdeal.KValue

end
-- ==== Proof.lean ====
/-
  The relation module's kernel against its jnp reference, over the extended reals.

  For every (query, support) pair the reference concatenates the two 256-entry feature rows, applies three
  dense layers with the rectifier (512 → 256 → 128 → 64) and the logistic function of a last affine map.
  The kernel computes the same number another way: the first layer is factored as
  `q W₁[0:256] + (s W₁[256:512] + b₁)` (both products computed once, outside the pairwise part), the third
  layer and the read-out are padded from 64 to 128 lanes by zeros, the read-out is a lane product and a lane
  sum, and the pairs are tiled 64 query rows at a time. At the ideal instance a change of float format is the
  identity and the two arrangements are equal on ALL extended reals: splitting a finite sum, re-associating
  `+`, and `x * 0 = 0` hold without any finiteness, so the precondition is never opened.

  * Proof/Spec.lean — the score `G` and the two rearrangements (`dense_split`, `padded_readout`);
  * Proof/RefRead.lean — the reference's result, read index by index, is `G`;
  * Proof/ScatterPads.lean, Proof/KernelHost.lean — the arrays the host computes before the launch
    (the two projections, the zero-padded weights);
  * Proof/KernelPay.lean, Proof/KernelBlock.lean — one grid point's block is a block of `G`;
  * Proof/KernelValue.lean — the 16 blocks tile the result: the kernel's result array is `G`.
  The three frames are the generated ones (the reference's is its generated run with the result dropped);
  the idealization rewrote nothing, so `preserves` is trivial.
-/
import proofs.«172009_j31885837205813_2_alg».proof.Defs
import proofs.«172009_j31885837205813_2_alg».proof.Proof.Gen.Kernel
import proofs.«172009_j31885837205813_2_alg».proof.Proof.Gen.Kernel.Skeleton
import proofs.«172009_j31885837205813_2_alg».proof.Proof.Gen.Kernel.Launch
import proofs.«172009_j31885837205813_2_alg».proof.Proof.Gen.Kernel.Points
import proofs.«172009_j31885837205813_2_alg».proof.Proof.Gen.Kernel.Frame
import proofs.«172009_j31885837205813_2_alg».proof.Proof.Gen.KernelIdeal
import proofs.«172009_j31885837205813_2_alg».proof.Proof.Gen.KernelIdeal.Skeleton
import proofs.«172009_j31885837205813_2_alg».proof.Proof.Gen.KernelIdeal.Launch
import proofs.«172009_j31885837205813_2_alg».proof.Proof.Gen.KernelIdeal.Points
import proofs.«172009_j31885837205813_2_alg».proof.Proof.Gen.KernelIdeal.Frame
import proofs.«172009_j31885837205813_2_alg».proof.Proof.Gen.ReferenceIdeal
import proofs.«172009_j31885837205813_2_alg».proof.Proof.Gen.Pre_finite_inputs
import proofs.«172009_j31885837205813_2_alg».proof.Proof.Gen.ReferenceIdeal.Run
import proofs.«172009_j31885837205813_2_alg».proof.Proof.Gen.ReferenceIdeal.Read
import proofs.«172009_j31885837205813_2_alg».proof.Proof.RefRead
import proofs.«172009_j31885837205813_2_alg».proof.Proof.KernelValue
import Idealize.ShloMosaic.Adequacy
import Idealize.ShloMosaic.Init

noncomputable section

namespace Cert.Proof

open Idealize.ShloMosaic Idealize.ShloMosaic.TcCoe Idealize.SL.Sem

/-- The three programs run, fault-free, and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the relation score `G` of the (agreeing) argument arrays as their result. -/
theorem algebraic : Cert.algebraic_KernelIdeal_ReferenceIdeal := by
  intro m ρ m' ρ' _ hagree
  refine ⟨fun c => Cert.KernelIdeal.KValue.GA m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v31_eq, Cert.ReferenceIdeal.RefValue.ref_eq, a0, a1, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
